-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v54)) (v1 : (c : Dev Cert.KernelIdeal.nD) → Buf (Elt Ideal) ((c.tc : Thread Cert.KernelIdeal.nD Cert.KernelIdeal.τ).loc Cert.KernelIdeal.main_v84)) (v2 : (c : Dev Cert.KernelIdeal.nD) → Buf (Elt Ideal) ((c.tc : Thread Cert.KernelIdeal.nD Cert.KernelIdeal.τ).loc Cert.KernelIdeal.main_v91)) (v3 : (c : Dev Cert.KernelIdeal.nD) → Buf (Elt Ideal) ((c.tc : Thread Cert.KernelIdeal.nD Cert.KernelIdeal.τ).loc Cert.KernelIdeal.main_v98)) (v4 : (c : Dev Cert.KernelIdeal.nD) → Buf (Elt Ideal) ((c.tc : Thread Cert.KernelIdeal.nD Cert.KernelIdeal.τ).loc Cert.KernelIdeal.main_v105)) (v5 : (c : Dev Cert.KernelIdeal.nD) → Buf (Elt Ideal) ((c.tc : Thread Cert.KernelIdeal.nD Cert.KernelIdeal.τ).loc Cert.KernelIdeal.main_v112)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v54) = v0 c
          ∧ r.2.mem ((c.tc : Thread Cert.KernelIdeal.nD Cert.KernelIdeal.τ).loc Cert.KernelIdeal.main_v84) = v1 c
          ∧ r.2.mem ((c.tc : Thread Cert.KernelIdeal.nD Cert.KernelIdeal.τ).loc Cert.KernelIdeal.main_v91) = v2 c
          ∧ r.2.mem ((c.tc : Thread Cert.KernelIdeal.nD Cert.KernelIdeal.τ).loc Cert.KernelIdeal.main_v98) = v3 c
          ∧ r.2.mem ((c.tc : Thread Cert.KernelIdeal.nD Cert.KernelIdeal.τ).loc Cert.KernelIdeal.main_v105) = v4 c
          ∧ r.2.mem ((c.tc : Thread Cert.KernelIdeal.nD Cert.KernelIdeal.τ).loc Cert.KernelIdeal.main_v112) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v107) = v0 c
          ∧ r.2.mem ((c.tc : Thread Cert.ReferenceIdeal.nD Cert.ReferenceIdeal.τ).loc Cert.ReferenceIdeal.main_v114) = v1 c
          ∧ r.2.mem ((c.tc : Thread Cert.ReferenceIdeal.nD Cert.ReferenceIdeal.τ).loc Cert.ReferenceIdeal.main_v121) = v2 c
          ∧ r.2.mem ((c.tc : Thread Cert.ReferenceIdeal.nD Cert.ReferenceIdeal.τ).loc Cert.ReferenceIdeal.main_v128) = v3 c
          ∧ r.2.mem ((c.tc : Thread Cert.ReferenceIdeal.nD Cert.ReferenceIdeal.τ).loc Cert.ReferenceIdeal.main_v135) = v4 c
          ∧ r.2.mem ((c.tc : Thread Cert.ReferenceIdeal.nD Cert.ReferenceIdeal.τ).loc Cert.ReferenceIdeal.main_v142) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S3000000 : Shape := ⟨1, ![3000000]⟩
abbrev S2000000 : Shape := ⟨1, ![2000000]⟩
abbrev S10000x10000 : Shape := ⟨2, ![10000, 10000]⟩
abbrev S200000x64 : Shape := ⟨2, ![200000, 64]⟩
abbrev S100000x64 : Shape := ⟨2, ![100000, 64]⟩
abbrev S10000x64 : Shape := ⟨2, ![10000, 64]⟩
abbrev S64x1 : Shape := ⟨2, ![64, 1]⟩
abbrev S1 : Shape := ⟨1, ![1]⟩
abbrev S_ : Shape := ⟨0, ![]⟩

class Facts : Prop where
  bcast_S_S3000000 : S_.BroadcastsInDim S3000000 (![] : Fin 0 → Fin S3000000.rank)
  reducesTo_S3000000_S_d0 : S3000000.ReducesTo [0] S_
  h_S_ : 0 < S_.numel
  bcast_S_S2000000 : S_.BroadcastsInDim S2000000 (![] : Fin 0 → Fin S2000000.rank)
  reducesTo_S2000000_S_d0 : S2000000.ReducesTo [0] S_
  bcast_S_S10000x10000 : S_.BroadcastsInDim S10000x10000 (![] : Fin 0 → Fin S10000x10000.rank)
  reducesTo_S10000x10000_S_d0_1 : S10000x10000.ReducesTo [0, 1] S_
  bcast_S_S200000x64 : S_.BroadcastsInDim S200000x64 (![] : Fin 0 → Fin S200000x64.rank)
  reducesTo_S200000x64_S_d0_1 : S200000x64.ReducesTo [0, 1] S_
  bcast_S_S100000x64 : S_.BroadcastsInDim S100000x64 (![] : Fin 0 → Fin S100000x64.rank)
  reducesTo_S100000x64_S_d0_1 : S100000x64.ReducesTo [0, 1] S_
  bcast_S_S10000x64 : S_.BroadcastsInDim S10000x64 (![] : Fin 0 → Fin S10000x64.rank)
  reducesTo_S10000x64_S_d0_1 : S10000x64.ReducesTo [0, 1] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S8192 : S_.BroadcastsInDim S8192 (![] : Fin 0 → Fin S8192.rank)
  reducesTo_S8192_S_d0 : S8192.ReducesTo [0] S_

variable [Facts]

def fn_part3 {F : FTy → Type} [FloatOps F] (main_arg0 : IVec S8192 32) (main_arg18 : FVec F S1 .f32) (main_v48 : IVec S_ 1) (main_v49 : FVec F S64x1 .f32) (main_v50 : FVec F S64x1 .f32) : IVec S_ 1 :=
  let main_v51 : IVec S64x1 1 := cmpf .olt main_v49 main_v50
  let main_c_19 : IVec S_ 1 := constantI S_ 1 1#1
  let main_v52 : IVec S_ 1 := (fun x v => Host.reduce IntOp.andi x v reducesTo_S64x1_S_d0_1 h_S_) main_v51 main_c_19
  let main_v53 : IVec S_ 1 := andi main_v48 main_v52
  let main_v54 : FVec F S1 .f32 := Host.absf main_arg18
  let main_cst_20 : FVec F S_ .f32 := constant S_ .f32 0x7F800000#32
  let main_v55 : FVec F S1 .f32 := broadcastInDim S1 ![] bcast_S_S1 main_cst_20
  let main_v56 : IVec S1 1 := cmpf .olt main_v54 main_v55
  let main_c_21 : IVec S_ 1 := constantI S_ 1 1#1
  let main_v57 : IVec S_ 1 := (fun x v => Host.reduce IntOp.andi x v reducesTo_S1_S_d0 h_S_) main_v56 main_c_21
  let main_v58 : IVec S_ 1 := andi main_v53 main_v57
  let main_c_22 : IVec S_ 32 := constantI S_ 32 0#32
  let main_v59 : IVec S8192 32 := broadcastInDim S8192 ![] bcast_S_S8192 main_c_22
  let main_v60 : IVec S8192 1 := cmpi .sge main_arg0 main_v59
  let main_c_23 : IVec S_ 1 := constantI S_ 1 1#1
  let main_v61 : IVec S_ 1 := (fun x v => Host.reduce IntOp.andi x v reducesTo_S8192_S_d0 h_S_) main_v60 main_c_23
  let main_v62 : IVec S_ 1 := andi main_v58 main_v61
  let main_c_24 : IVec S_ 32 := constantI S_ 32 200000#32
  let main_v63 : IVec S8192 32 := broadcastInDim S8192 ![] bcast_S_S8192 main_c_24
  let main_v64 : IVec S8192 1 := cmpi .slt main_arg0 main_v63
  let main_c_25 : IVec S_ 1 := constantI S_ 1 1#1
  let main_v65 : IVec S_ 1 := (fun x v => Host.reduce IntOp.andi x v reducesTo_S8192_S_d0 h_S_) main_v64 main_c_25
  let main_v66 : IVec S_ 1 := andi main_v62 main_v65
  main_v66

def fn_part2 {F : FTy → Type} [FloatOps F] (main_arg0 : IVec S8192 32) (main_arg14 : FVec F S1 .f32) (main_arg15 : FVec F S64x1 .f32) (main_arg16 : FVec F S1 .f32) (main_arg17 : FVec F S64x1 .f32) (main_arg18 : FVec F S1 .f32) (main_v33 : IVec S_ 1) : IVec S_ 1 :=
  let main_v34 : FVec F S1 .f32 := Host.absf main_arg14
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  let main_v39 : FVec F S64x1 .f32 := Host.absf main_arg15
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg16
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  let main_v49 : FVec F S64x1 .f32 := Host.absf main_arg17
  let main_cst_18 : FVec F S_ .f32 := constant S_ .f32 0x7F800000#32
  let main_v50 : FVec F S64x1 .f32 := broadcastInDim S64x1 ![] bcast_S_S64x1 main_cst_18
  fn_part3 (F := F) main_arg0 main_arg18 main_v48 main_v49 main_v50

def fn_part1 {F : FTy → Type} [FloatOps F] (main_arg0 : IVec S8192 32) (main_arg11 : FVec F S100000x64 .f32) (main_arg12 : FVec F S10000x64 .f32) (main_arg13 : FVec F S64x1 .f32) (main_arg14 : FVec F S1 .f32) (main_arg15 : FVec F S64x1 .f32) (main_arg16 : FVec F S1 .f32) (main_arg17 : FVec F S64x1 .f32) (main_arg18 : FVec F S1 .f32) (main_v13 : IVec S_ 1) (main_v16 : IVec S200000x64 1) : IVec S_ 1 :=
  let main_c_5 : IVec S_ 1 := constantI S_ 1 1#1
  let main_v17 : IVec S_ 1 := (fun x v => Host.reduce IntOp.andi x v reducesTo_S200000x64_S_d0_1 h_S_) main_v16 main_c_5
  let main_v18 : IVec S_ 1 := andi main_v13 main_v17
  let main_v19 : FVec F S100000x64 .f32 := Host.absf main_arg11
  let main_cst_6 : FVec F S_ .f32 := constant S_ .f32 0x7F800000#32
  let main_v20 : FVec F S100000x64 .f32 := broadcastInDim S100000x64 ![] bcast_S_S100000x64 main_cst_6
  let main_v21 : IVec S100000x64 1 := cmpf .olt main_v19 main_v20
  let main_c_7 : IVec S_ 1 := constantI S_ 1 1#1
  let main_v22 : IVec S_ 1 := (fun x v => Host.reduce IntOp.andi x v reducesTo_S100000x64_S_d0_1 h_S_) main_v21 main_c_7
  let main_v23 : IVec S_ 1 := andi main_v18 main_v22
  let main_v24 : FVec F S10000x64 .f32 := Host.absf main_arg12
  let main_cst_8 : FVec F S_ .f32 := constant S_ .f32 0x7F800000#32
  let main_v25 : FVec F S10000x64 .f32 := broadcastInDim S10000x64 ![] bcast_S_S10000x64 main_cst_8
  let main_v26 : IVec S10000x64 1 := cmpf .olt main_v24 main_v25
  let main_c_9 : IVec S_ 1 := constantI S_ 1 1#1
  let main_v27 : IVec S_ 1 := (fun x v => Host.reduce IntOp.andi x v reducesTo_S10000x64_S_d0_1 h_S_) main_v26 main_c_9
  let main_v28 : IVec S_ 1 := andi main_v23 main_v27
  let main_v29 : FVec F S64x1 .f32 := Host.absf main_arg13
  let main_cst_10 : FVec F S_ .f32 := constant S_ .f32 0x7F800000#32
  let main_v30 : FVec F S64x1 .f32 := broadcastInDim S64x1 ![] bcast_S_S64x1 main_cst_10
  let main_v31 : IVec S64x1 1 := cmpf .olt main_v29 main_v30
  let main_c_11 : IVec S_ 1 := constantI S_ 1 1#1
  let main_v32 : IVec S_ 1 := (fun x v => Host.reduce IntOp.andi x v reducesTo_S64x1_S_d0_1 h_S_) main_v31 main_c_11
  let main_v33 : IVec S_ 1 := andi main_v28 main_v32
  fn_part2 (F := F) main_arg0 main_arg14 main_arg15 main_arg16 main_arg17 main_arg18 main_v33

def fn {F : FTy → Type} [FloatOps F] (main_arg0 : IVec S8192 32) (main_arg1 : IVec S8192 32) (main_arg2 : IVec S8192 32) (main_arg3 : IVec S3000000 32) (main_arg4 : IVec S3000000 32) (main_arg5 : FVec F S3000000 .f32) (main_arg6 : IVec S2000000 32) (main_arg7 : IVec S2000000 32) (main_arg8 : FVec F S2000000 .f32) (main_arg9 : FVec F S10000x10000 .f32) (main_arg10 : FVec F S200000x64 .f32) (main_arg11 : FVec F S100000x64 .f32) (main_arg12 : FVec F S10000x64 .f32) (main_arg13 : FVec F S64x1 .f32) (main_arg14 : FVec F S1 .f32) (main_arg15 : FVec F S64x1 .f32) (main_arg16 : FVec F S1 .f32) (main_arg17 : FVec F S64x1 .f32) (main_arg18 : FVec F S1 .f32) : IVec S_ 1 :=
  let main_v0 : FVec F S3000000 .f32 := Host.absf main_arg5
  let main_cst : FVec F S_ .f32 := constant S_ .f32 0x7F800000#32
  let main_v1 : FVec F S3000000 .f32 := broadcastInDim S3000000 ![] bcast_S_S3000000 main_cst
  let main_v2 : IVec S3000000 1 := cmpf .olt main_v0 main_v1
  let main_c : IVec S_ 1 := constantI S_ 1 1#1
  let main_v3 : IVec S_ 1 := (fun x v => Host.reduce IntOp.andi x v reducesTo_S3000000_S_d0 h_S_) main_v2 main_c
  let main_v4 : FVec F S2000000 .f32 := Host.absf main_arg8
  let main_cst_0 : FVec F S_ .f32 := constant S_ .f32 0x7F800000#32
  let main_v5 : FVec F S2000000 .f32 := broadcastInDim S2000000 ![] bcast_S_S2000000 main_cst_0
  let main_v6 : IVec S2000000 1 := cmpf .olt main_v4 main_v5
  let main_c_1 : IVec S_ 1 := constantI S_ 1 1#1
  let main_v7 : IVec S_ 1 := (fun x v => Host.reduce IntOp.andi x v reducesTo_S2000000_S_d0 h_S_) main_v6 main_c_1
  let main_v8 : IVec S_ 1 := andi main_v3 main_v7
  let main_v9 : FVec F S10000x10000 .f32 := Host.absf main_arg9
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S200000x64 .f32 := Host.absf main_arg10
  let main_cst_4 : FVec F S_ .f32 := constant S_ .f32 0x7F800000#32
  let main_v15 : FVec F S200000x64 .f32 := broadcastInDim S200000x64 ![] bcast_S_S200000x64 main_cst_4
  let main_v16 : IVec S200000x64 1 := cmpf .olt main_v14 main_v15
  fn_part1 (F := F) main_arg0 main_arg11 main_arg12 main_arg13 main_arg14 main_arg15 main_arg16 main_arg17 main_arg18 main_v13 main_v16
-- ==== Kernel.lean ====
abbrev S8192 : Shape := ⟨1, ![8192]⟩
abbrev S3000000 : Shape := ⟨1, ![3000000]⟩
abbrev S2000000 : Shape := ⟨1, ![2000000]⟩
abbrev S10000x10000 : Shape := ⟨2, ![10000, 10000]⟩
abbrev S200000x64 : Shape := ⟨2, ![200000, 64]⟩
abbrev S100000x64 : Shape := ⟨2, ![100000, 64]⟩
abbrev S10000x64 : Shape := ⟨2, ![10000, 64]⟩
abbrev S64x1 : Shape := ⟨2, ![64, 1]⟩
abbrev S1 : Shape := ⟨1, ![1]⟩
abbrev S210000x64 : Shape := ⟨2, ![210000, 64]⟩
abbrev S3000000x1 : Shape := ⟨2, ![3000000, 1]⟩
abbrev S_ : Shape := ⟨0, ![]⟩
abbrev S3000000x64 : Shape := ⟨2, ![3000000, 64]⟩
abbrev S8192x1 : Shape := ⟨2, ![8192, 1]⟩
abbrev S8192x64 : Shape := ⟨2, ![8192, 64]⟩
abbrev S110000x64 : Shape := ⟨2, ![110000, 64]⟩
abbrev S2000000x1 : Shape := ⟨2, ![2000000, 1]⟩
abbrev S2000000x64 : Shape := ⟨2, ![2000000, 64]⟩
abbrev S1x64 : Shape := ⟨2, ![1, 64]⟩
abbrev S1x1 : Shape := ⟨2, ![1, 1]⟩
abbrev S200x10000 : Shape := ⟨2, ![200, 10000]⟩
abbrev S200x64 : Shape := ⟨2, ![200, 64]⟩
abbrev S200 : Shape := ⟨1, ![200]⟩
abbrev S200x1 : Shape := ⟨2, ![200, 1]⟩

abbrev nBuf : Space → Nat
  | .hbm => 158
  | .vmem => 15
  | .smem => 0
  | _ => 0

abbrev hbmTy0_0 (i : Nat) : BufTy := match i % 128 with
  | 0 => ⟨S8192, .i32⟩
  | 1 => ⟨S8192, .i32⟩
  | 2 => ⟨S8192, .i32⟩
  | 3 => ⟨S3000000, .i32⟩
  | 4 => ⟨S3000000, .i32⟩
  | 5 => ⟨S3000000, .f32⟩
  | 6 => ⟨S2000000, .i32⟩
  | 7 => ⟨S2000000, .i32⟩
  | 8 => ⟨S2000000, .f32⟩
  | 9 => ⟨S10000x10000, .f32⟩
  | 10 => ⟨S200000x64, .f32⟩
  | 11 => ⟨S100000x64, .f32⟩
  | 12 => ⟨S10000x64, .f32⟩
  | 13 => ⟨S64x1, .f32⟩
  | 14 => ⟨S1, .f32⟩
  | 15 => ⟨S64x1, .f32⟩
  | 16 => ⟨S1, .f32⟩
  | 17 => ⟨S64x1, .f32⟩
  | 18 => ⟨S1, .f32⟩
  | 19 => ⟨S210000x64, .f32⟩
  | 20 => ⟨S3000000x1, .f32⟩
  | 21 => ⟨S_, .i32⟩
  | 22 => ⟨S3000000, .i32⟩
  | 23 => ⟨S3000000, .i1⟩
  | 24 => ⟨S_, .i32⟩
  | 25 => ⟨S3000000, .i32⟩
  | 26 => ⟨S3000000, .i32⟩
  | 27 => ⟨S3000000, .i32⟩
  | 28 => ⟨S3000000x1, .i32⟩
  | 29 => ⟨S3000000x64, .f32⟩
  | 30 => ⟨S3000000x64, .f32⟩
  | 31 => ⟨S3000000x64, .f32⟩
  | 32 => ⟨S_, .f32⟩
  | 33 => ⟨S210000x64, .f32⟩
  | 34 => ⟨S3000000x1, .i32⟩
  | 35 => ⟨S210000x64, .f32⟩
  | 36 => ⟨S210000x64, .f32⟩
  | 37 => ⟨S3000000x1, .f32⟩
  | 38 => ⟨S_, .i32⟩
  | 39 => ⟨S3000000, .i32⟩
  | 40 => ⟨S3000000, .i1⟩
  | 41 => ⟨S_, .i32⟩
  | 42 => ⟨S3000000, .i32⟩
  | 43 => ⟨S3000000, .i32⟩
  | 44 => ⟨S3000000, .i32⟩
  | 45 => ⟨S3000000x1, .i32⟩
  | 46 => ⟨S3000000x64, .f32⟩
  | 47 => ⟨S3000000x64, .f32⟩
  | 48 => ⟨S3000000x64, .f32⟩
  | 49 => ⟨S_, .f32⟩
  | 50 => ⟨S210000x64, .f32⟩
  | 51 => ⟨S3000000x1, .i32⟩
  | 52 => ⟨S210000x64, .f32⟩
  | 53 => ⟨S210000x64, .f32⟩
  | 54 => ⟨S3000000x1, .f32⟩
  | 55 => ⟨S_, .i32⟩
  | 56 => ⟨S3000000, .i32⟩
  | 57 => ⟨S3000000, .i1⟩
  | 58 => ⟨S_, .i32⟩
  | 59 => ⟨S3000000, .i32⟩
  | 60 => ⟨S3000000, .i32⟩
  | 61 => ⟨S3000000, .i32⟩
  | 62 => ⟨S3000000x1, .i32⟩
  | 63 => ⟨S3000000x64, .f32⟩
  | 64 => ⟨S3000000x64, .f32⟩
  | 65 => ⟨S3000000x64, .f32⟩
  | 66 => ⟨S_, .f32⟩
  | 67 => ⟨S210000x64, .f32⟩
  | 68 => ⟨S3000000x1, .i32⟩
  | 69 => ⟨S210000x64, .f32⟩
  | 70 => ⟨S210000x64, .f32⟩
  | 71 => ⟨S10000x64, .f32⟩
  | 72 => ⟨S_, .f32⟩
  | 73 => ⟨S10000x64, .f32⟩
  | 74 => ⟨S10000x64, .f32⟩
  | 75 => ⟨S_, .i32⟩
  | 76 => ⟨S8192, .i32⟩
  | 77 => ⟨S8192, .i1⟩
  | 78 => ⟨S_, .i32⟩
  | 79 => ⟨S8192, .i32⟩
  | 80 => ⟨S8192, .i32⟩
  | 81 => ⟨S8192, .i32⟩
  | 82 => ⟨S8192x1, .i32⟩
  | 83 => ⟨S8192x64, .f32⟩
  | 84 => ⟨S_, .f32⟩
  | 85 => ⟨S8192x64, .f32⟩
  | 86 => ⟨S8192x64, .f32⟩
  | 87 => ⟨S110000x64, .f32⟩
  | 88 => ⟨S2000000x1, .f32⟩
  | 89 => ⟨S_, .i32⟩
  | 90 => ⟨S2000000, .i32⟩
  | 91 => ⟨S2000000, .i1⟩
  | 92 => ⟨S_, .i32⟩
  | 93 => ⟨S2000000, .i32⟩
  | 94 => ⟨S2000000, .i32⟩
  | 95 => ⟨S2000000, .i32⟩
  | 96 => ⟨S2000000x1, .i32⟩
  | 97 => ⟨S2000000x64, .f32⟩
  | 98 => ⟨S2000000x64, .f32⟩
  | 99 => ⟨S2000000x64, .f32⟩
  | 100 => ⟨S_, .f32⟩
  | 101 => ⟨S110000x64, .f32⟩
  | 102 => ⟨S2000000x1, .i32⟩
  | 103 => ⟨S110000x64, .f32⟩
  | 104 => ⟨S10000x64, .f32⟩
  | 105 => ⟨S10000x64, .bf16⟩
  | 106 => ⟨S1x64, .f32⟩
  | 107 => ⟨S1x64, .f32⟩
  | 108 => ⟨S1x64, .f32⟩
  | 109 => ⟨S1x1, .f32⟩
  | 110 => ⟨S1x1, .f32⟩
  | 111 => ⟨S1x1, .f32⟩
  | 112 => ⟨S10000x64, .f32⟩
  | 113 => ⟨S_, .i32⟩
  | 114 => ⟨S8192, .i32⟩
  | 115 => ⟨S8192, .i1⟩
  | 116 => ⟨S_, .i32⟩
  | 117 => ⟨S8192, .i32⟩
  | 118 => ⟨S8192, .i32⟩
  | 119 => ⟨S8192, .i32⟩
  | 120 => ⟨S8192x1, .i32⟩
  | 121 => ⟨S8192x64, .f32⟩
  | 122 => ⟨S_, .i32⟩
  | 123 => ⟨S8192, .i32⟩
  | 124 => ⟨S8192, .i1⟩
  | 125 => ⟨S_, .i32⟩
  | 126 => ⟨S8192, .i32⟩
  | 127 => ⟨S8192, .i32⟩
  | _ => ⟨S8192, .i32⟩

abbrev hbmTy0_1 (i : Nat) : BufTy := match i % 128 with
  | 0 => ⟨S8192, .i32⟩
  | 1 => ⟨S8192x1, .i32⟩
  | 2 => ⟨S8192x64, .f32⟩
  | 3 => ⟨S_, .i32⟩
  | 4 => ⟨S8192, .i32⟩
  | 5 => ⟨S8192, .i1⟩
  | 6 => ⟨S_, .i32⟩
  | 7 => ⟨S8192, .i32⟩
  | 8 => ⟨S8192, .i32⟩
  | 9 => ⟨S8192, .i32⟩
  | 10 => ⟨S8192x1, .i32⟩
  | 11 => ⟨S8192x64, .f32⟩
  | 12 => ⟨S_, .i32⟩
  | 13 => ⟨S8192, .i32⟩
  | 14 => ⟨S8192, .i1⟩
  | 15 => ⟨S_, .i32⟩
  | 16 => ⟨S8192, .i32⟩
  | 17 => ⟨S8192, .i32⟩
  | 18 => ⟨S8192, .i32⟩
  | 19 => ⟨S8192x1, .i32⟩
  | 20 => ⟨S8192x64, .f32⟩
  | 21 => ⟨S_, .i32⟩
  | 22 => ⟨S8192, .i32⟩
  | 23 => ⟨S8192, .i1⟩
  | 24 => ⟨S_, .i32⟩
  | 25 => ⟨S8192, .i32⟩
  | 26 => ⟨S8192, .i32⟩
  | 27 => ⟨S8192, .i32⟩
  | 28 => ⟨S8192x1, .i32⟩
  | 29 => ⟨S8192x64, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | .local _ .vmem, ⟨0, _⟩ => ⟨S200x10000, .f32⟩
  | .local _ .vmem, ⟨1, _⟩ => ⟨S200x10000, .f32⟩
  | .local _ .vmem, ⟨2, _⟩ => ⟨S10000x64, .bf16⟩
  | .local _ .vmem, ⟨3, _⟩ => ⟨S200x64, .f32⟩
  | .local _ .vmem, ⟨4, _⟩ => ⟨S200x64, .f32⟩
  | .local _ .vmem, ⟨5, _⟩ => ⟨S200x64, .f32⟩
  | .local _ .vmem, ⟨6, _⟩ => ⟨S200x64, .f32⟩
  | .local _ .vmem, ⟨7, _⟩ => ⟨S1x64, .f32⟩
  | .local _ .vmem, ⟨8, _⟩ => ⟨S1x1, .f32⟩
  | .local _ .vmem, ⟨9, _⟩ => ⟨S1x64, .f32⟩
  | .local _ .vmem, ⟨10, _⟩ => ⟨S1x1, .f32⟩
  | .local _ .vmem, ⟨11, _⟩ => ⟨S1x64, .f32⟩
  | .local _ .vmem, ⟨12, _⟩ => ⟨S1x1, .f32⟩
  | .local _ .vmem, ⟨13, _⟩ => ⟨S200x64, .f32⟩
  | .local _ .vmem, ⟨14, _⟩ => ⟨S200x64, .f32⟩
  | _, _ => ⟨S8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_1 : Ref sig .tc := ⟨.hbm, 38, rfl⟩
abbrev main_v16 : Ref sig .tc := ⟨.hbm, 39, rfl⟩
abbrev main_v17 : Ref sig .tc := ⟨.hbm, 40, rfl⟩
abbrev main_c_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_c_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_7 : Ref sig .tc := ⟨.hbm, 72, rfl⟩
abbrev main_v44 : Ref sig .tc := ⟨.hbm, 73, rfl⟩
abbrev main_v45 : Ref sig .tc := ⟨.hbm, 74, rfl⟩
abbrev main_c_8 : Ref sig .tc := ⟨.hbm, 75, rfl⟩
abbrev main_v46 : Ref sig .tc := ⟨.hbm, 76, rfl⟩
abbrev main_v47 : Ref sig .tc := ⟨.hbm, 77, rfl⟩
abbrev main_c_9 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_10 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_c_11 : Ref sig .tc := ⟨.hbm, 89, rfl⟩
abbrev main_v57 : Ref sig .tc := ⟨.hbm, 90, rfl⟩
abbrev main_v58 : Ref sig .tc := ⟨.hbm, 91, rfl⟩
abbrev main_c_12 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_cst_13 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_c_14 : Ref sig .tc := ⟨.hbm, 113, rfl⟩
abbrev main_v78 : Ref sig .tc := ⟨.hbm, 114, rfl⟩
abbrev main_v79 : Ref sig .tc := ⟨.hbm, 115, rfl⟩
abbrev main_c_15 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_c_16 : Ref sig .tc := ⟨.hbm, 122, rfl⟩
abbrev main_v85 : Ref sig .tc := ⟨.hbm, 123, rfl⟩
abbrev main_v86 : Ref sig .tc := ⟨.hbm, 124, rfl⟩
abbrev main_c_17 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_v91 : Ref sig .tc := ⟨.hbm, 130, rfl⟩
abbrev main_c_18 : Ref sig .tc := ⟨.hbm, 131, rfl⟩
abbrev main_v92 : Ref sig .tc := ⟨.hbm, 132, rfl⟩
abbrev main_v93 : Ref sig .tc := ⟨.hbm, 133, rfl⟩
abbrev main_c_19 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_c_20 : Ref sig .tc := ⟨.hbm, 140, rfl⟩
abbrev main_v99 : Ref sig .tc := ⟨.hbm, 141, rfl⟩
abbrev main_v100 : Ref sig .tc := ⟨.hbm, 142, rfl⟩
abbrev main_c_21 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_c_22 : Ref sig .tc := ⟨.hbm, 149, rfl⟩
abbrev main_v106 : Ref sig .tc := ⟨.hbm, 150, rfl⟩
abbrev main_v107 : Ref sig .tc := ⟨.hbm, 151, rfl⟩
abbrev main_c_23 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S10000x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S200x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S200x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S200x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

class Facts₀ : Prop where
  concatenates_S200000x64_S10000x64_S210000x64_d0 : Shape.Concatenates [S200000x64, S10000x64] S210000x64 0
  bcast_S3000000_S3000000x1_0 : S3000000.BroadcastsInDim S3000000x1 (![0] : Fin 1 → Fin S3000000x1.rank)
  bcast_S_S3000000 : S_.BroadcastsInDim S3000000 (![] : Fin 0 → Fin S3000000.rank)
  bcast_S3000000x1_S3000000x64_0_1 : S3000000x1.BroadcastsInDim S3000000x64 (![0, 1] : Fin 2 → Fin S3000000x64.rank)
  bcast_S_S210000x64 : S_.BroadcastsInDim S210000x64 (![] : Fin 0 → Fin S210000x64.rank)
  slices_S210000x64_S10000x64_200000_0 : S210000x64.Slices ![200000, 0] S10000x64
  bcast_S_S10000x64 : S_.BroadcastsInDim S10000x64 (![] : Fin 0 → Fin S10000x64.rank)
  bcast_S_S8192 : S_.BroadcastsInDim S8192 (![] : Fin 0 → Fin S8192.rank)
  bcast_S8192_S8192x1_0 : S8192.BroadcastsInDim S8192x1 (![0] : Fin 1 → Fin S8192x1.rank)
  bcast_S_S8192x64 : S_.BroadcastsInDim S8192x64 (![] : Fin 0 → Fin S8192x64.rank)
  concatenates_S10000x64_S100000x64_S110000x64_d0 : Shape.Concatenates [S10000x64, S100000x64] S110000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S110000x64 : S_.BroadcastsInDim S110000x64 (![] : Fin 0 → Fin S110000x64.rank)
  slices_S110000x64_S10000x64_0_0 : S110000x64.Slices ![0, 0] S10000x64
  bitsLt_bf16_f32 : FTy.bits .bf16 < FTy.bits .f32
  shapeCasts_S64x1_S1x64 : S64x1.ShapeCasts S1x64
  shapeCasts_S1_S1x1 : S1.ShapeCasts S1x1
  inb_S200x10000_S200x10000_0_0 : ∀ a, (![0, 0] : Fin 2 → Nat) a + S200x10000.size a ≤ S200x10000.size a
  h_S200x10000 : 0 < S200x10000.numel
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S200x64_S200x64_0_0 : ∀ a, (![0, 0] : Fin 2 → Nat) a + S200x64.size a ≤ S200x64.size a
  h_S200x64 : 0 < S200x64.numel
  shapeCasts_S200x64_S200x64 : S200x64.ShapeCasts S200x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  reduces_S200x64_S200 : S200x64.Reduces [1] S200
  shapeCasts_S200_S200x1 : S200.ShapeCasts S200x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S200x1 : S1x1.Broadcasts S200x1
  broadcasts_S200x1_S200x64 : S200x1.Broadcasts S200x64
  gather_S210000x64_S3000000x1_S3000000x64_1_0_n_n_0_1_164_wf : GatherDims.WF S210000x64 S3000000x1 S3000000x64 [1] [0] [] [0] [] 1 ![1, 64]
  scatter_S210000x64_S3000000x1_S3000000x64_1_0_0_1_wf : ScatterDims.WF S210000x64 S3000000x1 S3000000x64 [1] [0] [0] 1
  gather_S210000x64_S8192x1_S8192x64_1_0_n_n_0_1_164_wf : GatherDims.WF S210000x64 S8192x1 S8192x64 [1] [0] [] [0] [] 1 ![1, 64]
  gather_S110000x64_S2000000x1_S2000000x64_1_0_n_n_0_1_164_wf : GatherDims.WF S110000x64 S2000000x1 S2000000x64 [1] [0] [] [0] [] 1 ![1, 64]
  scatter_S110000x64_S2000000x1_S2000000x64_1_0_0_1_wf : ScatterDims.WF S110000x64 S2000000x1 S2000000x64 [1] [0] [0] 1
  dot_S200x10000_S10000x64_S200x64_1_0_0_1_n_n_wf : DotDims.WF S200x10000 S10000x64 S200x64 [1] [0] [0] [1] [] []
  gather_S10000x64_S8192x1_S8192x64_1_0_n_n_0_1_164_wf : GatherDims.WF S10000x64 S8192x1 S8192x64 [1] [0] [] [0] [] 1 ![1, 64]
  gather_S200000x64_S8192x1_S8192x64_1_0_n_n_0_1_164_wf : GatherDims.WF S200000x64 S8192x1 S8192x64 [1] [0] [] [0] [] 1 ![1, 64]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S10000x64.size a
  hwx0_1 : ∀ i : grid0.Coords, EltTy.bits .bf16 = 32 ∨ (Rect.block (s := S10000x64) S10000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S200x64.size a ≤ S10000x64.size a
  hwx0_2 : ∀ i : grid0.Coords, EltTy.bits .f32 = 32 ∨ (Rect.block (s := S10000x64) S200x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S200x64.size a ≤ S10000x64.size a
  hwx0_3 : ∀ i : grid0.Coords, EltTy.bits .f32 = 32 ∨ (Rect.block (s := S10000x64) S200x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x64.size a ≤ S1x64.size a
  hwx0_4 : ∀ i : grid0.Coords, EltTy.bits .f32 = 32 ∨ (Rect.block (s := S1x64) S1x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1.size a ≤ S1x1.size a
  hwx0_5 : ∀ i : grid0.Coords, EltTy.bits .f32 = 32 ∨ (Rect.block (s := S1x1) S1x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x1.size a ≤ S1x1.size a
  hwx0_9 : ∀ i : grid0.Coords, EltTy.bits .f32 = 32 ∨ (Rect.block (s := S1x1) S1x1.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S200x64.size a ≤ S10000x64.size a
  hwx0_10 : ∀ i : grid0.Coords, EltTy.bits .f32 = 32 ∨ (Rect.block (s := S10000x64) S200x64.size (cc0_transform_10 i) (hinb0_10 i)).WholeWords (EltTy.packing .f32)

variable [Facts₀]

def gather_S210000x64_S3000000x1_S3000000x64_1_0_n_n_0_1_164 : GatherDims S210000x64 S3000000x1 S3000000x64 where
  offsetDims := [1]
  collapsedSliceDims := [0]
  operandBatchingDims := []
  startIndicesBatchingDims := []
  startIndexMap := [0]
  indexVectorDim := 1
  sliceSizes := ![1, 64]
  wf := gather_S210000x64_S3000000x1_S3000000x64_1_0_n_n_0_1_164_wf
def scatter_S210000x64_S3000000x1_S3000000x64_1_0_0_1 : ScatterDims S210000x64 S3000000x1 S3000000x64 where
  updateWindowDims := [1]
  insertedWindowDims := [0]
  scatterDimsToOperandDims := [0]
  indexVectorDim := 1
  wf := scatter_S210000x64_S3000000x1_S3000000x64_1_0_0_1_wf
def gather_S210000x64_S8192x1_S8192x64_1_0_n_n_0_1_164 : GatherDims S210000x64 S8192x1 S8192x64 where
  offsetDims := [1]
  collapsedSliceDims := [0]
  operandBatchingDims := []
  startIndicesBatchingDims := []
  startIndexMap := [0]
  indexVectorDim := 1
  sliceSizes := ![1, 64]
  wf := gather_S210000x64_S8192x1_S8192x64_1_0_n_n_0_1_164_wf
def gather_S110000x64_S2000000x1_S2000000x64_1_0_n_n_0_1_164 : GatherDims S110000x64 S2000000x1 S2000000x64 where
  offsetDims := [1]
  collapsedSliceDims := [0]
  operandBatchingDims := []
  startIndicesBatchingDims := []
  startIndexMap := [0]
  indexVectorDim := 1
  sliceSizes := ![1, 64]
  wf := gather_S110000x64_S2000000x1_S2000000x64_1_0_n_n_0_1_164_wf
def scatter_S110000x64_S2000000x1_S2000000x64_1_0_0_1 : ScatterDims S110000x64 S2000000x1 S2000000x64 where
  updateWindowDims := [1]
  insertedWindowDims := [0]
  scatterDimsToOperandDims := [0]
  indexVectorDim := 1
  wf := scatter_S110000x64_S2000000x1_S2000000x64_1_0_0_1_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def gather_S10000x64_S8192x1_S8192x64_1_0_n_n_0_1_164 : GatherDims S10000x64 S8192x1 S8192x64 where
  offsetDims := [1]
  collapsedSliceDims := [0]
  operandBatchingDims := []
  startIndicesBatchingDims := []
  startIndexMap := [0]
  indexVectorDim := 1
  sliceSizes := ![1, 64]
  wf := gather_S10000x64_S8192x1_S8192x64_1_0_n_n_0_1_164_wf
def gather_S200000x64_S8192x1_S8192x64_1_0_n_n_0_1_164 : GatherDims S200000x64 S8192x1 S8192x64 where
  offsetDims := [1]
  collapsedSliceDims := [0]
  operandBatchingDims := []
  startIndicesBatchingDims := []
  startIndexMap := [0]
  indexVectorDim := 1
  sliceSizes := ![1, 64]
  wf := gather_S200000x64_S8192x1_S8192x64_1_0_n_n_0_1_164_wf

abbrev win0_0 : Pipeline.Window sig grid0 :=
  Pipeline.Window.ofSpec (Memref.whole main_arg9) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v70) S10000x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v45) S200x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v69) S200x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v71) S1x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v74) S1x1.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v72) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v75) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v73) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v76) S1x1.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v77) S200x64.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8192 : Shape := ⟨1, ![8192]⟩
abbrev S3000000 : Shape := ⟨1, ![3000000]⟩
abbrev S2000000 : Shape := ⟨1, ![2000000]⟩
abbrev S10000x10000 : Shape := ⟨2, ![10000, 10000]⟩
abbrev S200000x64 : Shape := ⟨2, ![200000, 64]⟩
abbrev S100000x64 : Shape := ⟨2, ![100000, 64]⟩
abbrev S10000x64 : Shape := ⟨2, ![10000, 64]⟩
abbrev S64x1 : Shape := ⟨2, ![64, 1]⟩
abbrev S1 : Shape := ⟨1, ![1]⟩
abbrev S210000x64 : Shape := ⟨2, ![210000, 64]⟩
abbrev S3000000x1 : Shape := ⟨2, ![3000000, 1]⟩
abbrev S_ : Shape := ⟨0, ![]⟩
abbrev S3000000x64 : Shape := ⟨2, ![3000000, 64]⟩
abbrev S110000x64 : Shape := ⟨2, ![110000, 64]⟩
abbrev S2000000x1 : Shape := ⟨2, ![2000000, 1]⟩
abbrev S2000000x64 : Shape := ⟨2, ![2000000, 64]⟩
abbrev S10000x1 : Shape := ⟨2, ![10000, 1]⟩
abbrev S1x1 : Shape := ⟨2, ![1, 1]⟩
abbrev S8192x1 : Shape := ⟨2, ![8192, 1]⟩
abbrev S8192x64 : Shape := ⟨2, ![8192, 64]⟩

abbrev nBuf : Space → Nat
  | .hbm => 193
  | .vmem => 0
  | .smem => 0
  | _ => 0

abbrev hbmTy0_0 (i : Nat) : BufTy := match i % 128 with
  | 0 => ⟨S8192, .i32⟩
  | 1 => ⟨S8192, .i32⟩
  | 2 => ⟨S8192, .i32⟩
  | 3 => ⟨S3000000, .i32⟩
  | 4 => ⟨S3000000, .i32⟩
  | 5 => ⟨S3000000, .f32⟩
  | 6 => ⟨S2000000, .i32⟩
  | 7 => ⟨S2000000, .i32⟩
  | 8 => ⟨S2000000, .f32⟩
  | 9 => ⟨S10000x10000, .f32⟩
  | 10 => ⟨S200000x64, .f32⟩
  | 11 => ⟨S100000x64, .f32⟩
  | 12 => ⟨S10000x64, .f32⟩
  | 13 => ⟨S64x1, .f32⟩
  | 14 => ⟨S1, .f32⟩
  | 15 => ⟨S64x1, .f32⟩
  | 16 => ⟨S1, .f32⟩
  | 17 => ⟨S64x1, .f32⟩
  | 18 => ⟨S1, .f32⟩
  | 19 => ⟨S210000x64, .f32⟩
  | 20 => ⟨S3000000x1, .f32⟩
  | 21 => ⟨S_, .i32⟩
  | 22 => ⟨S3000000, .i32⟩
  | 23 => ⟨S3000000, .i1⟩
  | 24 => ⟨S_, .i32⟩
  | 25 => ⟨S3000000, .i32⟩
  | 26 => ⟨S3000000, .i32⟩
  | 27 => ⟨S3000000, .i32⟩
  | 28 => ⟨S3000000x1, .i32⟩
  | 29 => ⟨S3000000x64, .f32⟩
  | 30 => ⟨S3000000x64, .f32⟩
  | 31 => ⟨S3000000x64, .f32⟩
  | 32 => ⟨S_, .f32⟩
  | 33 => ⟨S210000x64, .f32⟩
  | 34 => ⟨S3000000x1, .i32⟩
  | 35 => ⟨S210000x64, .f32⟩
  | 36 => ⟨S210000x64, .f32⟩
  | 37 => ⟨S3000000x1, .f32⟩
  | 38 => ⟨S_, .i32⟩
  | 39 => ⟨S3000000, .i32⟩
  | 40 => ⟨S3000000, .i1⟩
  | 41 => ⟨S_, .i32⟩
  | 42 => ⟨S3000000, .i32⟩
  | 43 => ⟨S3000000, .i32⟩
  | 44 => ⟨S3000000, .i32⟩
  | 45 => ⟨S3000000x1, .i32⟩
  | 46 => ⟨S3000000x64, .f32⟩
  | 47 => ⟨S3000000x64, .f32⟩
  | 48 => ⟨S3000000x64, .f32⟩
  | 49 => ⟨S_, .f32⟩
  | 50 => ⟨S210000x64, .f32⟩
  | 51 => ⟨S3000000x1, .i32⟩
  | 52 => ⟨S210000x64, .f32⟩
  | 53 => ⟨S210000x64, .f32⟩
  | 54 => ⟨S3000000x1, .f32⟩
  | 55 => ⟨S_, .i32⟩
  | 56 => ⟨S3000000, .i32⟩
  | 57 => ⟨S3000000, .i1⟩
  | 58 => ⟨S_, .i32⟩
  | 59 => ⟨S3000000, .i32⟩
  | 60 => ⟨S3000000, .i32⟩
  | 61 => ⟨S3000000, .i32⟩
  | 62 => ⟨S3000000x1, .i32⟩
  | 63 => ⟨S3000000x64, .f32⟩
  | 64 => ⟨S3000000x64, .f32⟩
  | 65 => ⟨S3000000x64, .f32⟩
  | 66 => ⟨S_, .f32⟩
  | 67 => ⟨S210000x64, .f32⟩
  | 68 => ⟨S3000000x1, .i32⟩
  | 69 => ⟨S210000x64, .f32⟩
  | 70 => ⟨S210000x64, .f32⟩
  | 71 => ⟨S_, .f32⟩
  | 72 => ⟨S210000x64, .f32⟩
  | 73 => ⟨S210000x64, .f32⟩
  | 74 => ⟨S200000x64, .f32⟩
  | 75 => ⟨S10000x64, .f32⟩
  | 76 => ⟨S110000x64, .f32⟩
  | 77 => ⟨S2000000x1, .f32⟩
  | 78 => ⟨S_, .i32⟩
  | 79 => ⟨S2000000, .i32⟩
  | 80 => ⟨S2000000, .i1⟩
  | 81 => ⟨S_, .i32⟩
  | 82 => ⟨S2000000, .i32⟩
  | 83 => ⟨S2000000, .i32⟩
  | 84 => ⟨S2000000, .i32⟩
  | 85 => ⟨S2000000x1, .i32⟩
  | 86 => ⟨S2000000x64, .f32⟩
  | 87 => ⟨S2000000x64, .f32⟩
  | 88 => ⟨S2000000x64, .f32⟩
  | 89 => ⟨S_, .f32⟩
  | 90 => ⟨S110000x64, .f32⟩
  | 91 => ⟨S2000000x1, .i32⟩
  | 92 => ⟨S110000x64, .f32⟩
  | 93 => ⟨S10000x64, .f32⟩
  | 94 => ⟨S10000x64, .f32⟩
  | 95 => ⟨S10000x1, .f32⟩
  | 96 => ⟨S1x1, .f32⟩
  | 97 => ⟨S10000x1, .f32⟩
  | 98 => ⟨S10000x1, .f32⟩
  | 99 => ⟨S10000x1, .f32⟩
  | 100 => ⟨S10000x1, .f32⟩
  | 101 => ⟨S_, .f32⟩
  | 102 => ⟨S10000x1, .f32⟩
  | 103 => ⟨S10000x1, .f32⟩
  | 104 => ⟨S_, .f32⟩
  | 105 => ⟨S10000x1, .f32⟩
  | 106 => ⟨S10000x1, .f32⟩
  | 107 => ⟨S10000x1, .f32⟩
  | 108 => ⟨S1x1, .f32⟩
  | 109 => ⟨S10000x1, .f32⟩
  | 110 => ⟨S10000x1, .f32⟩
  | 111 => ⟨S10000x1, .f32⟩
  | 112 => ⟨S10000x1, .f32⟩
  | 113 => ⟨S_, .f32⟩
  | 114 => ⟨S10000x1, .f32⟩
  | 115 => ⟨S10000x1, .f32⟩
  | 116 => ⟨S_, .f32⟩
  | 117 => ⟨S10000x1, .f32⟩
  | 118 => ⟨S10000x1, .f32⟩
  | 119 => ⟨S10000x1, .f32⟩
  | 120 => ⟨S1x1, .f32⟩
  | 121 => ⟨S10000x1, .f32⟩
  | 122 => ⟨S10000x1, .f32⟩
  | 123 => ⟨S10000x1, .f32⟩
  | 124 => ⟨S10000x1, .f32⟩
  | 125 => ⟨S_, .f32⟩
  | 126 => ⟨S10000x1, .f32⟩
  | 127 => ⟨S10000x1, .f32⟩
  | _ => ⟨S8192, .i32⟩

abbrev hbmTy0_1 (i : Nat) : BufTy := match i % 128 with
  | 0 => ⟨S_, .f32⟩
  | 1 => ⟨S10000x1, .f32⟩
  | 2 => ⟨S10000x1, .f32⟩
  | 3 => ⟨S10000x64, .f32⟩
  | 4 => ⟨S10000x64, .f32⟩
  | 5 => ⟨S10000x64, .f32⟩
  | 6 => ⟨S10000x64, .f32⟩
  | 7 => ⟨S10000x64, .f32⟩
  | 8 => ⟨S10000x64, .f32⟩
  | 9 => ⟨S10000x64, .f32⟩
  | 10 => ⟨S10000x64, .f32⟩
  | 11 => ⟨S_, .i32⟩
  | 12 => ⟨S8192, .i32⟩
  | 13 => ⟨S8192, .i1⟩
  | 14 => ⟨S_, .i32⟩
  | 15 => ⟨S8192, .i32⟩
  | 16 => ⟨S8192, .i32⟩
  | 17 => ⟨S8192, .i32⟩
  | 18 => ⟨S8192x1, .i32⟩
  | 19 => ⟨S8192x64, .f32⟩
  | 20 => ⟨S_, .i32⟩
  | 21 => ⟨S8192, .i32⟩
  | 22 => ⟨S8192, .i1⟩
  | 23 => ⟨S_, .i32⟩
  | 24 => ⟨S8192, .i32⟩
  | 25 => ⟨S8192, .i32⟩
  | 26 => ⟨S8192, .i32⟩
  | 27 => ⟨S8192x1, .i32⟩
  | 28 => ⟨S8192x64, .f32⟩
  | 29 => ⟨S_, .i32⟩
  | 30 => ⟨S8192, .i32⟩
  | 31 => ⟨S8192, .i1⟩
  | 32 => ⟨S_, .i32⟩
  | 33 => ⟨S8192, .i32⟩
  | 34 => ⟨S8192, .i32⟩
  | 35 => ⟨S8192, .i32⟩
  | 36 => ⟨S8192x1, .i32⟩
  | 37 => ⟨S8192x64, .f32⟩
  | 38 => ⟨S_, .i32⟩
  | 39 => ⟨S8192, .i32⟩
  | 40 => ⟨S8192, .i1⟩
  | 41 => ⟨S_, .i32⟩
  | 42 => ⟨S8192, .i32⟩
  | 43 => ⟨S8192, .i32⟩
  | 44 => ⟨S8192, .i32⟩
  | 45 => ⟨S8192x1, .i32⟩
  | 46 => ⟨S8192x64, .f32⟩
  | 47 => ⟨S_, .i32⟩
  | 48 => ⟨S8192, .i32⟩
  | 49 => ⟨S8192, .i1⟩
  | 50 => ⟨S_, .i32⟩
  | 51 => ⟨S8192, .i32⟩
  | 52 => ⟨S8192, .i32⟩
  | 53 => ⟨S8192, .i32⟩
  | 54 => ⟨S8192x1, .i32⟩
  | 55 => ⟨S8192x64, .f32⟩
  | 56 => ⟨S_, .i32⟩
  | 57 => ⟨S8192, .i32⟩
  | 58 => ⟨S8192, .i1⟩
  | 59 => ⟨S_, .i32⟩
  | 60 => ⟨S8192, .i32⟩
  | 61 => ⟨S8192, .i32⟩
  | 62 => ⟨S8192, .i32⟩
  | 63 => ⟨S8192x1, .i32⟩
  | 64 => ⟨S8192x64, .f32⟩
  | _ => ⟨S8192, .i32⟩

abbrev hbmTy (i : Nat) : BufTy := match i / 128 with
  | 0 => hbmTy0_0 i
  | 1 => hbmTy0_1 i
  | _ => ⟨S8192, .i32⟩

abbrev bufTy : (tb : Table) → Fin (tcTables nBuf tb) → BufTy
  | .hbm, ⟨i, _⟩ => hbmTy i
  | _, _ => ⟨S8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_c : Ref sig .tc := ⟨.hbm, 21, rfl⟩
abbrev main_v2 : Ref sig .tc := ⟨.hbm, 22, rfl⟩
abbrev main_v3 : Ref sig .tc := ⟨.hbm, 23, rfl⟩
abbrev main_c_0 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_c_1 : Ref sig .tc := ⟨.hbm, 38, rfl⟩
abbrev main_v16 : Ref sig .tc := ⟨.hbm, 39, rfl⟩
abbrev main_v17 : Ref sig .tc := ⟨.hbm, 40, rfl⟩
abbrev main_c_2 : Ref sig .tc := ⟨.hbm, 41, rfl⟩
abbrev main_v18 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_cst_3 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_c_4 : Ref sig .tc := ⟨.hbm, 55, rfl⟩
abbrev main_v30 : Ref sig .tc := ⟨.hbm, 56, rfl⟩
abbrev main_v31 : Ref sig .tc := ⟨.hbm, 57, rfl⟩
abbrev main_c_5 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_cst_6 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_7 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_c_8 : Ref sig .tc := ⟨.hbm, 78, rfl⟩
abbrev main_v49 : Ref sig .tc := ⟨.hbm, 79, rfl⟩
abbrev main_v50 : Ref sig .tc := ⟨.hbm, 80, rfl⟩
abbrev main_c_9 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_10 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_cst_11 : Ref sig .tc := ⟨.hbm, 101, rfl⟩
abbrev main_v69 : Ref sig .tc := ⟨.hbm, 102, rfl⟩
abbrev main_v70 : Ref sig .tc := ⟨.hbm, 103, rfl⟩
abbrev main_cst_12 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_cst_13 : Ref sig .tc := ⟨.hbm, 113, rfl⟩
abbrev main_v79 : Ref sig .tc := ⟨.hbm, 114, rfl⟩
abbrev main_v80 : Ref sig .tc := ⟨.hbm, 115, rfl⟩
abbrev main_cst_14 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_cst_15 : Ref sig .tc := ⟨.hbm, 125, rfl⟩
abbrev main_v89 : Ref sig .tc := ⟨.hbm, 126, rfl⟩
abbrev main_v90 : Ref sig .tc := ⟨.hbm, 127, rfl⟩
abbrev main_cst_16 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_c_17 : Ref sig .tc := ⟨.hbm, 139, rfl⟩
abbrev main_v101 : Ref sig .tc := ⟨.hbm, 140, rfl⟩
abbrev main_v102 : Ref sig .tc := ⟨.hbm, 141, rfl⟩
abbrev main_c_18 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_c_19 : Ref sig .tc := ⟨.hbm, 148, rfl⟩
abbrev main_v108 : Ref sig .tc := ⟨.hbm, 149, rfl⟩
abbrev main_v109 : Ref sig .tc := ⟨.hbm, 150, rfl⟩
abbrev main_c_20 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_v113 : Ref sig .tc := ⟨.hbm, 155, rfl⟩
abbrev main_v114 : Ref sig .tc := ⟨.hbm, 156, rfl⟩
abbrev main_c_21 : Ref sig .tc := ⟨.hbm, 157, rfl⟩
abbrev main_v115 : Ref sig .tc := ⟨.hbm, 158, rfl⟩
abbrev main_v116 : Ref sig .tc := ⟨.hbm, 159, rfl⟩
abbrev main_c_22 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_v120 : Ref sig .tc := ⟨.hbm, 164, rfl⟩
abbrev main_v121 : Ref sig .tc := ⟨.hbm, 165, rfl⟩
abbrev main_c_23 : Ref sig .tc := ⟨.hbm, 166, rfl⟩
abbrev main_v122 : Ref sig .tc := ⟨.hbm, 167, rfl⟩
abbrev main_v123 : Ref sig .tc := ⟨.hbm, 168, rfl⟩
abbrev main_c_24 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_c_25 : Ref sig .tc := ⟨.hbm, 175, rfl⟩
abbrev main_v129 : Ref sig .tc := ⟨.hbm, 176, rfl⟩
abbrev main_v130 : Ref sig .tc := ⟨.hbm, 177, rfl⟩
abbrev main_c_26 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_c_27 : Ref sig .tc := ⟨.hbm, 184, rfl⟩
abbrev main_v136 : Ref sig .tc := ⟨.hbm, 185, rfl⟩
abbrev main_v137 : Ref sig .tc := ⟨.hbm, 186, rfl⟩
abbrev main_c_28 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_v141 : Ref sig .tc := ⟨.hbm, 191, rfl⟩
abbrev main_v142 : Ref sig .tc := ⟨.hbm, 192, rfl⟩

abbrev nD : Nat := 1
abbrev τ : Topo := Topo.v7x

variable {F : FTy → Type} [FloatOps F]

class Facts₀ : Prop where
  concatenates_S200000x64_S10000x64_S210000x64_d0 : Shape.Concatenates [S200000x64, S10000x64] S210000x64 0
  bcast_S3000000_S3000000x1_0 : S3000000.BroadcastsInDim S3000000x1 (![0] : Fin 1 → Fin S3000000x1.rank)
  bcast_S_S3000000 : S_.BroadcastsInDim S3000000 (![] : Fin 0 → Fin S3000000.rank)
  bcast_S3000000x1_S3000000x64_0_1 : S3000000x1.BroadcastsInDim S3000000x64 (![0, 1] : Fin 2 → Fin S3000000x64.rank)
  bcast_S_S210000x64 : S_.BroadcastsInDim S210000x64 (![] : Fin 0 → Fin S210000x64.rank)
  slices_S210000x64_S200000x64_0_0 : S210000x64.Slices ![0, 0] S200000x64
  slices_S210000x64_S10000x64_200000_0 : S210000x64.Slices ![200000, 0] S10000x64
  concatenates_S10000x64_S100000x64_S110000x64_d0 : Shape.Concatenates [S10000x64, S100000x64] S110000x64 0
  bcast_S2000000_S2000000x1_0 : S2000000.BroadcastsInDim S2000000x1 (![0] : Fin 1 → Fin S2000000x1.rank)
  bcast_S_S2000000 : S_.BroadcastsInDim S2000000 (![] : Fin 0 → Fin S2000000.rank)
  bcast_S2000000x1_S2000000x64_0_1 : S2000000x1.BroadcastsInDim S2000000x64 (![0, 1] : Fin 2 → Fin S2000000x64.rank)
  bcast_S_S110000x64 : S_.BroadcastsInDim S110000x64 (![] : Fin 0 → Fin S110000x64.rank)
  slices_S110000x64_S10000x64_0_0 : S110000x64.Slices ![0, 0] S10000x64
  bcast_S1_S1x1_1 : S1.BroadcastsInDim S1x1 (![1] : Fin 1 → Fin S1x1.rank)
  bcast_S1x1_S10000x1_0_1 : S1x1.BroadcastsInDim S10000x1 (![0, 1] : Fin 2 → Fin S10000x1.rank)
  bcast_S_S10000x1 : S_.BroadcastsInDim S10000x1 (![] : Fin 0 → Fin S10000x1.rank)
  bcast_S10000x1_S10000x64_0_1 : S10000x1.BroadcastsInDim S10000x64 (![0, 1] : Fin 2 → Fin S10000x64.rank)
  bcast_S_S8192 : S_.BroadcastsInDim S8192 (![] : Fin 0 → Fin S8192.rank)
  bcast_S8192_S8192x1_0 : S8192.BroadcastsInDim S8192x1 (![0] : Fin 1 → Fin S8192x1.rank)
  gather_S210000x64_S3000000x1_S3000000x64_1_0_n_n_0_1_164_wf : GatherDims.WF S210000x64 S3000000x1 S3000000x64 [1] [0] [] [0] [] 1 ![1, 64]
  scatter_S210000x64_S3000000x1_S3000000x64_1_0_0_1_wf : ScatterDims.WF S210000x64 S3000000x1 S3000000x64 [1] [0] [0] 1
  gather_S110000x64_S2000000x1_S2000000x64_1_0_n_n_0_1_164_wf : GatherDims.WF S110000x64 S2000000x1 S2000000x64 [1] [0] [] [0] [] 1 ![1, 64]
  scatter_S110000x64_S2000000x1_S2000000x64_1_0_0_1_wf : ScatterDims.WF S110000x64 S2000000x1 S2000000x64 [1] [0] [0] 1
  dot_S10000x10000_S10000x64_S10000x64_1_0_0_1_n_n_wf : DotDims.WF S10000x10000 S10000x64 S10000x64 [1] [0] [0] [1] [] []
  dot_S10000x64_S64x1_S10000x1_1_0_0_1_n_n_wf : DotDims.WF S10000x64 S64x1 S10000x1 [1] [0] [0] [1] [] []
  gather_S200000x64_S8192x1_S8192x64_1_0_n_n_0_1_164_wf : GatherDims.WF S200000x64 S8192x1 S8192x64 [1] [0] [] [0] [] 1 ![1, 64]
  gather_S10000x64_S8192x1_S8192x64_1_0_n_n_0_1_164_wf : GatherDims.WF S10000x64 S8192x1 S8192x64 [1] [0] [] [0] [] 1 ![1, 64]

variable [Facts₀]

def gather_S210000x64_S3000000x1_S3000000x64_1_0_n_n_0_1_164 : GatherDims S210000x64 S3000000x1 S3000000x64 where
  offsetDims := [1]
  collapsedSliceDims := [0]
  operandBatchingDims := []
  startIndicesBatchingDims := []
  startIndexMap := [0]
  indexVectorDim := 1
  sliceSizes := ![1, 64]
  wf := gather_S210000x64_S3000000x1_S3000000x64_1_0_n_n_0_1_164_wf
def scatter_S210000x64_S3000000x1_S3000000x64_1_0_0_1 : ScatterDims S210000x64 S3000000x1 S3000000x64 where
  updateWindowDims := [1]
  insertedWindowDims := [0]
  scatterDimsToOperandDims := [0]
  indexVectorDim := 1
  wf := scatter_S210000x64_S3000000x1_S3000000x64_1_0_0_1_wf
def gather_S110000x64_S2000000x1_S2000000x64_1_0_n_n_0_1_164 : GatherDims S110000x64 S2000000x1 S2000000x64 where
  offsetDims := [1]
  collapsedSliceDims := [0]
  operandBatchingDims := []
  startIndicesBatchingDims := []
  startIndexMap := [0]
  indexVectorDim := 1
  sliceSizes := ![1, 64]
  wf := gather_S110000x64_S2000000x1_S2000000x64_1_0_n_n_0_1_164_wf
def scatter_S110000x64_S2000000x1_S2000000x64_1_0_0_1 : ScatterDims S110000x64 S2000000x1 S2000000x64 where
  updateWindowDims := [1]
  insertedWindowDims := [0]
  scatterDimsToOperandDims := [0]
  indexVectorDim := 1
  wf := scatter_S110000x64_S2000000x1_S2000000x64_1_0_0_1_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S200000x64_S8192x1_S8192x64_1_0_n_n_0_1_164 : GatherDims S200000x64 S8192x1 S8192x64 where
  offsetDims := [1]
  collapsedSliceDims := [0]
  operandBatchingDims := []
  startIndicesBatchingDims := []
  startIndexMap := [0]
  indexVectorDim := 1
  sliceSizes := ![1, 64]
  wf := gather_S200000x64_S8192x1_S8192x64_1_0_n_n_0_1_164_wf
def gather_S10000x64_S8192x1_S8192x64_1_0_n_n_0_1_164 : GatherDims S10000x64 S8192x1 S8192x64 where
  offsetDims := [1]
  collapsedSliceDims := [0]
  operandBatchingDims := []
  startIndicesBatchingDims := []
  startIndexMap := [0]
  indexVectorDim := 1
  sliceSizes := ![1, 64]
  wf := gather_S10000x64_S8192x1_S8192x64_1_0_n_n_0_1_164_wf

class Facts : Prop extends Facts₀ where

variable [Facts]
-- ==== Proof.Fusion.lean ====
/-
  The gated fusion of three views of the groups, one row at a time, on the extended reals.

  Each group r has a row of 64 features in each of three views: the hypergraph view h, the group-item view i, and the
  overlap view, which is row r of the group-group matrix times the group embedding table: (g · E)(q) = Σ_l g l · e l q.
  A view's gate is the logistic function of the row's inner product with that view's weight vector, plus a bias.
  The fused row is the sum of the three rows, each scaled by its own gate.
-/
import Idealize.ShloMosaic.PureOps.Ideal
import Idealize.ShloMosaic.Lib.ValueIdx

noncomputable section

namespace Cert.Fusion

open Idealize.ShloMosaic

/-- The gate of a row: σ(Σ_k row k · w k + b). -/
def gate (row w : Fin 64 → EReal) (b : EReal) : EReal := Ideal.logistic ((∑ k : Fin 64, row k * w k) + b)

/-- A row of the group-group matrix times the embedding table. -/
def mix (g : Fin 10000 → EReal) (e : Fin 10000 → Fin 64 → EReal) (q : Fin 64) : EReal := ∑ l : Fin 10000, g l * e l q

/-- The fused row at feature q. -/
def rowFused (h i : Fin 64 → EReal) (g : Fin 10000 → EReal) (e : Fin 10000 → Fin 64 → EReal)
    (w1 w2 w3 : Fin 64 → EReal) (b1 b2 b3 : EReal) (q : Fin 64) : EReal :=
  gate h w1 b1 * h q + gate i w2 b2 * i q + gate (mix g e) w3 b3 * mix g e q

/-- The fused row depends on its rows, weights and biases entry by entry. -/
theorem rowFused_congr {h h' i i' : Fin 64 → EReal} {g g' : Fin 10000 → EReal} {e e' : Fin 10000 → Fin 64 → EReal}
    {w1 w1' w2 w2' w3 w3' : Fin 64 → EReal} {b1 b1' b2 b2' b3 b3' : EReal}
    (hh : ∀ k, h k = h' k) (hi : ∀ k, i k = i' k) (hg : ∀ l, g l = g' l) (he : ∀ l q, e l q = e' l q)
    (h1 : ∀ k, w1 k = w1' k) (h2 : ∀ k, w2 k = w2' k) (h3 : ∀ k, w3 k = w3' k)
    (k1 : b1 = b1') (k2 : b2 = b2') (k3 : b3 = b3') (q : Fin 64) :
    rowFused h i g e w1 w2 w3 b1 b2 b3 q = rowFused h' i' g' e' w1' w2' w3' b1' b2' b3' q := by
  obtain rfl : h = h' := funext hh
  obtain rfl : i = i' := funext hi
  obtain rfl : g = g' := funext hg
  obtain rfl : e = e' := funext fun l => funext (he l)
  obtain rfl : w1 = w1' := funext h1
  obtain rfl : w2 = w2' := funext h2
  obtain rfl : w3 = w3' := funext h3
  subst k1 k2 k3
  rfl

end Cert.Fusion

end
-- ==== Proof.LibKeepdims.lean ====
/-
  Two layout operations read at an index, for a reduction that keeps its axis as a unit column:
  a vector [a] cast to a column [a, 1], and a column [a, 1] broadcast along the rows of [a, b].
  Together: (broadcast (cast v)) (p, c) = v p — every entry of row p is the row's reduced value.
-/
import Idealize.ShloMosaic.Lib.Pipeline.Value
import Idealize.ShloMosaic.Lib.ValueIdx
import Idealize.ShloMosaic.Lib.ValueLayout

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector's entry `p` spread along row `p`: the cast to a column followed by the broadcast along the rows. -/
theorem keepdims_apply {a b : ℕ} (x : (⟨1, ![a]⟩ : Shape).Idx → α) (h : (⟨1, ![a]⟩ : Shape).ShapeCasts ⟨2, ![a, 1]⟩)
    (h' : (⟨2, ![a, 1]⟩ : Shape).Broadcasts ⟨2, ![a, b]⟩) (p : Fin a) (c : Fin b) :
    broadcastTo ⟨2, ![a, b]⟩ (shapeCast ⟨2, ![a, 1]⟩ x h) h' (ix2 p c) = x (ix1 p) := by
  rw [broadcastTo_a1_ab_apply, shapeCast_a_a1_apply]

end Cert.LibKeepdims

end
-- ==== Proof.LibHostRead.lean ====
/-
  Host and kernel layout operations read at an index of a rank-2 array, and a plain matrix product as a sum.

  `broadcast_in_dim` in the five forms a row-wise reference uses — a vector as the one row or the one column of a
  matrix, a row or a column repeated along a matrix, a scalar spread over any shape —, each read at `ix2 p c`; and a
  dot that is rows × contraction times contraction × columns (`PlainDot`: one contracted axis, the four coordinate
  facts, each a `decide` or a library lemma at a literal dot) read at `(p, j)` as `Σ k, lhs (p, k) · rhs (k, j)`,
  for the host's `dot_general` and for the kernel's matrix product into the zero accumulator. On the extended reals.
-/
import Idealize.ShloMosaic.Lib.Pipeline.Value
import Idealize.ShloMosaic.Lib.ValueIdx
import Idealize.ShloMosaic.PureOps.Ideal.Laws

noncomputable section

namespace Cert.LibHostRead

open Idealize.ShloMosaic Idealize.ShloMosaic.ValueIdx

variable {α : Type}

/-- A vector `[b]` placed as the one row of `[1, b]`: at `(u, c)` it reads the vector at `c`. -/
theorem bid_b_1b_apply {b : ℕ} (x : (⟨1, ![b]⟩ : Shape).Idx → α) (h : (⟨1, ![b]⟩ : Shape).BroadcastsInDim ⟨2, ![1, b]⟩ ![1])
    (u : Fin 1) (c : Fin b) : broadcastInDim ⟨2, ![1, b]⟩ ![1] h x (ix2 u c) = x (ix1 c) :=
  broadcastInDim_apply _ h x _ _ fun a => by
    match a with
    | ⟨0, _⟩ =>
      show c.val = if b = 1 then 0 else c.val
      split
      · have := c.isLt; omega
      · rfl

/-- A row `[1, b]` repeated along `[a, b]`: at `(p, c)` it reads the row at `c`. -/
theorem bid_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) :=
  broadcastInDim_apply _ h v _ _ fun ax => by
    match ax with
    | ⟨0, _⟩ => show 0 = if (1 : ℕ) = 1 then 0 else p.val; rw [if_pos rfl]
    | ⟨1, _⟩ =>
      show c.val = if b = 1 then 0 else c.val
      split
      · have := c.isLt; omega
      · rfl

/-- A vector `[a]` placed as the one column of `[a, 1]`: at `(p, u)` it reads the vector at `p`. -/
theorem bid_a_a1_apply {a : ℕ} (x : (⟨1, ![a]⟩ : Shape).Idx → α) (h : (⟨1, ![a]⟩ : Shape).BroadcastsInDim ⟨2, ![a, 1]⟩ ![0])
    (p : Fin a) (u : Fin 1) : broadcastInDim ⟨2, ![a, 1]⟩ ![0] h x (ix2 p u) = x (ix1 p) :=
  broadcastInDim_apply _ h x _ _ fun ax => by
    match ax with
    | ⟨0, _⟩ =>
      show p.val = if a = 1 then 0 else p.val
      split
      · have := p.isLt; omega
      · rfl

/-- A column `[a, 1]` repeated along `[a, b]`: at `(p, c)` it reads the column at `p`. -/
theorem bid_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) :=
  broadcastInDim_apply _ h v _ _ fun ax => by
    match ax with
    | ⟨0, _⟩ =>
      show p.val = if a = 1 then 0 else p.val
      split
      · have := p.isLt; omega
      · rfl
    | ⟨1, _⟩ => show 0 = if (1 : ℕ) = 1 then 0 else c.val; rw [if_pos rfl]

/-- A scalar spread over any shape reads the scalar everywhere. -/
theorem bid_scalar_apply {t : Shape} (x : (⟨0, ![]⟩ : Shape).Idx → α) (h : (⟨0, ![]⟩ : Shape).BroadcastsInDim t ![])
    (i : t.Idx) : broadcastInDim t ![] h x i = x ix0 :=
  broadcastInDim_apply _ h x i ix0 fun a => a.elim0

/-- What makes a dot a plain product of an `M × K` by a `K × N` matrix: one contracted axis of extent `K`; the left operand
    is read at (row of the result, contracted coordinate), the right at (contracted coordinate, column of the result). -/
structure PlainDot {M K N : ℕ} (d : DotDims ⟨2, ![M, K]⟩ ⟨2, ![K, N]⟩ ⟨2, ![M, N]⟩) : Prop where
  hr : d.contr.rank = 1
  hs : d.contr.size ⟨0, by omega⟩ = K
  hl0 : ∀ (i : (⟨2, ![M, N]⟩ : Shape).Idx) (q : d.contr.Idx), (d.lhsIdx i q 0).val = (i 0).val
  hl1 : ∀ (i : (⟨2, ![M, N]⟩ : Shape).Idx) (q : d.contr.Idx), (d.lhsIdx i q 1).val = (q ⟨0, by omega⟩).val
  hr0 : ∀ (i : (⟨2, ![M, N]⟩ : Shape).Idx) (q : d.contr.Idx), (d.rhsIdx i q 0).val = (q ⟨0, by omega⟩).val
  hr1 : ∀ (i : (⟨2, ![M, N]⟩ : Shape).Idx) (q : d.contr.Idx), (d.rhsIdx i q 1).val = (i 1).val

/-- The sum over a plain dot's contraction index is the sum over `Fin K` of the products along row `p` and column `j`. -/
theorem PlainDot.sum_eq {M K N : ℕ} {d : DotDims ⟨2, ![M, K]⟩ ⟨2, ![K, N]⟩ ⟨2, ![M, N]⟩} (hd : PlainDot d)
    (lhs : (⟨2, ![M, K]⟩ : Shape).Idx → EReal) (rhs : (⟨2, ![K, N]⟩ : Shape).Idx → EReal) (p : Fin M) (j : Fin N) :
    ∑ k : d.contr.Idx, lhs (d.lhsIdx (ix2 p j) k) * rhs (d.rhsIdx (ix2 p j) k) = ∑ k : Fin K, lhs (ix2 p k) * rhs (ix2 k j) := by
  rw [← Equiv.sum_comp (contrEquiv1 d K hd.hr hd.hs).symm]
  refine Finset.sum_congr rfl fun k _ => ?_
  have hk := contrEquiv1_symm_val d K hd.hr hd.hs k
  have el : d.lhsIdx (ix2 p j) ((contrEquiv1 d K hd.hr hd.hs).symm k) = ix2 p k := funext fun a => Fin.ext (by
    match a with
    | ⟨0, _⟩ => exact hd.hl0 _ _
    | ⟨1, _⟩ => exact (hd.hl1 _ _).trans hk)
  have er : d.rhsIdx (ix2 p j) ((contrEquiv1 d K hd.hr hd.hs).symm k) = ix2 k j := funext fun a => Fin.ext (by
    match a with
    | ⟨0, _⟩ => exact (hd.hr0 _ _).trans hk
    | ⟨1, _⟩ => exact hd.hr1 _ _)
  rw [el, er]

/-- The host's product of two matrices at `(p, j)`. -/
theorem dotGeneral_plain_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.dotGeneral d none .single lhs rhs (ix2 p j) = ∑ k : Fin K, lhs (ix2 p k) * rhs (ix2 k j) := by
  rw [Ideal.dotGeneral_apply]
  exact hd.sum_eq lhs rhs p j

/-- The kernel's matrix product into the zero accumulator at `(p, j)`. -/
theorem matmul_plain_zero_apply {M K N : ℕ} {φ₁ φ₂ : FTy} (d : DotDims ⟨2, ![M, K]⟩ ⟨2, ![K, N]⟩ ⟨2, ![M, N]⟩)
    (hd : PlainDot d) (lhs : FVec Ideal ⟨2, ![M, K]⟩ φ₁) (rhs : FVec Ideal ⟨2, ![K, N]⟩ φ₂) (p : Fin M) (j : Fin N) :
    FloatOps.matmul d none lhs rhs (constant ⟨2, ![M, N]⟩ .f32 0x00000000#32) (ix2 p j)
      = ∑ k : Fin K, lhs (ix2 p k) * rhs (ix2 k j) := by
  rw [Ideal.matmul_constant_zero_apply]
  exact hd.sum_eq lhs rhs p j

end Cert.LibHostRead

end
-- ==== Proof.BlockValue.lean ====
/-
  What one grid point of the fusion kernel stores, read at an index of its 200 × 64 block.

  The body loads a 200 × 10000 slab of the group-group matrix, the whole 10000 × 64 embedding table, the point's
  200 rows of the hypergraph and group-item views, and three weight rows with their biases. Row p of what it stores is
  the fused row (Fusion.rowFused) of row p of each loaded block: the matrix product into a zero accumulator is the sum
  over the contracted axis; a lane sum kept as a unit column and broadcast back is the row's inner product with the
  weight row; a change of float format is the identity on the extended reals.
-/
import proofs.«142578_j90658169684590_2_alg».proof.Proof.Gen.KernelIdeal.Frame
import proofs.«142578_j90658169684590_2_alg».proof.Proof.Fusion
import proofs.«142578_j90658169684590_2_alg».proof.Proof.LibKeepdims
import proofs.«142578_j90658169684590_2_alg».proof.Proof.LibHostRead
import Idealize.ShloMosaic.Lib.ValueLayout
import Idealize.ShloMosaic.PureOps.Ideal.Laws

noncomputable section

namespace Cert.KernelIdeal.BlockValue

open Cert.KernelIdeal Cert.KernelIdeal.Gen Idealize.ShloMosaic Idealize.ShloMosaic.ValueIdx

/-- The kernel's product is rows × contraction times contraction × columns. -/
theorem plainDot : Cert.LibHostRead.PlainDot dot_S200x10000_S10000x64_S200x64_1_0_0_1_n_n where
  hr := rfl
  hs := rfl
  hl0 := fun i q => by
    unfold DotDims.lhsIdx
    rw [dif_neg (show ¬(0 : Fin S200x10000.rank) ∈ dot_S200x10000_S10000x64_S200x64_1_0_0_1_n_n.lhsBatch by decide),
      dif_pos (show (0 : Fin S200x10000.rank) ∈ dot_S200x10000_S10000x64_S200x64_1_0_0_1_n_n.lhsNonContracting by decide)]
    rfl
  hl1 := fun i q => dot_S200x10000_S10000x64_S200x64_1_0_0_1_n_n.lhsIdx_val_of_single rfl i q
  hr0 := fun i q => dot_S200x10000_S10000x64_S200x64_1_0_0_1_n_n.rhsIdx_val_of_single rfl i q
  hr1 := fun i q => by
    unfold DotDims.rhsIdx
    rw [dif_neg (show ¬(1 : Fin S10000x64.rank) ∈ dot_S200x10000_S10000x64_S200x64_1_0_0_1_n_n.rhsBatch by decide),
      dif_pos (show (1 : Fin S10000x64.rank) ∈ dot_S200x10000_S10000x64_S200x64_1_0_0_1_n_n.rhsNonContracting by decide)]
    rfl

/-- The overlap block: row p of the slab times column q of the table. -/
theorem overlap_apply (x0 : FVec Ideal S200x10000 .f32) (x1 : FVec Ideal S10000x64 .bf16) (p : Fin 200) (q : Fin 64) :
    k0_pay2 (F := Ideal) x0 x1 (ix2 p q) = Fusion.mix (fun l => x0 (ix2 p l)) (fun l q' => x1 (ix2 l q')) q := by
  unfold k0_pay2
  rw [shapeCast_self]
  exact Cert.LibHostRead.matmul_plain_zero_apply _ plainDot (truncf .bf16 x0 bitsLt_bf16_f32) x1 p q

/-- The index a lane sum reads at lane k of row p. -/
theorem lift_eq (p : Fin 200) (k : Fin 64) : reduces_S200x64_S200.lift (ix1 p) k = ix2 p k :=
  funext fun a => Fin.ext (by match a with | ⟨0, _⟩ => rfl | ⟨1, _⟩ => rfl)

/-- A gate column: the logistic function of a row's inner product with the weight row, plus the bias. -/
theorem gate_apply (t : FVec Ideal S200x64 .f32) (w : FVec Ideal S1x64 .f32) (b : FVec Ideal S1x1 .f32) (p : Fin 200) (u : Fin 1) :
    logistic (addf (shapeCast S200x1 (multiReduction .add [1] S200 (mulf t (broadcastTo S200x64 (shapeCast S1x64 w shapeCasts_S1x64_S1x64) broadcasts_S1x64_S200x64)) 0x00000000#32 reduces_S200x64_S200 (.inl rfl) rfl) shapeCasts_S200_S200x1)
        (broadcastTo S200x1 (shapeCast S1x1 b shapeCasts_S1x1_S1x1) broadcasts_S1x1_S200x1)) (ix2 p u)
      = Fusion.gate (fun k => t (ix2 p k)) (fun k => w (ix2 (0 : Fin 1) k)) (b (ix2 (0 : Fin 1) (0 : Fin 1))) := by
  obtain rfl : u = 0 := Subsingleton.elim _ _
  show Ideal.logistic (shapeCast S200x1 _ shapeCasts_S200_S200x1 (ix2 p (0 : Fin 1)) + broadcastTo S200x1 _ broadcasts_S1x1_S200x1 (ix2 p (0 : Fin 1))) = _
  rw [Cert.LibKeepdims.shapeCast_a_a1_apply, broadcastTo_1b_ab_apply, shapeCast_self, shapeCast_self]
  unfold Fusion.gate
  refine congrArg (fun s => Ideal.logistic (s + b (ix2 (0 : Fin 1) (0 : Fin 1)))) ?_
  refine (Ideal.multiReduction_add_single _ _ reduces_S200x64_S200 (.inl rfl) rfl (ix1 p)).trans ?_
  show ∑ k : Fin 64, mulf t (broadcastTo S200x64 w broadcasts_S1x64_S200x64) (reduces_S200x64_S200.lift (ix1 p) k) = _
  refine Finset.sum_congr rfl fun k _ => ?_
  refine (congrArg (mulf t (broadcastTo S200x64 w broadcasts_S1x64_S200x64)) (lift_eq p k)).trans ?_
  show t (ix2 p k) * broadcastTo S200x64 w broadcasts_S1x64_S200x64 (ix2 p k) = _
  rw [broadcastTo_1b_ab_apply]

/-- The stored block at (p, q): the fused row of row p of the loaded blocks. -/
theorem store_apply (x0 : FVec Ideal S200x10000 .f32) (x1 : FVec Ideal S10000x64 .bf16) (x2 x3 : FVec Ideal S200x64 .f32)
    (x4 : FVec Ideal S1x64 .f32) (x5 : FVec Ideal S1x1 .f32) (x6 : FVec Ideal S1x64 .f32) (x7 : FVec Ideal S1x1 .f32)
    (x8 : FVec Ideal S1x64 .f32) (x9 : FVec Ideal S1x1 .f32) (p : Fin 200) (q : Fin 64) :
    k0_pay1 (F := Ideal) (k0_pay2 x0 x1) (k0_pay3 x2) (k0_pay4 x3) (k0_pay5 x2 x4 x5) (k0_pay6 x3 x6 x7) (k0_pay7 x0 x1 x8) x9 (ix2 p q)
      = Fusion.rowFused (fun k => x2 (ix2 p k)) (fun k => x3 (ix2 p k)) (fun l => x0 (ix2 p l)) (fun l q' => x1 (ix2 l q'))
          (fun k => x4 (ix2 (0 : Fin 1) k)) (fun k => x6 (ix2 (0 : Fin 1) k)) (fun k => x8 (ix2 (0 : Fin 1) k))
          (x5 (ix2 (0 : Fin 1) (0 : Fin 1))) (x7 (ix2 (0 : Fin 1) (0 : Fin 1))) (x9 (ix2 (0 : Fin 1) (0 : Fin 1))) q := by
  have e3 : k0_pay3 (F := Ideal) x2 = x2 := by unfold k0_pay3; exact shapeCast_self _ _
  have e4 : k0_pay4 (F := Ideal) x3 = x3 := by unfold k0_pay4; exact shapeCast_self _ _
  have e2 : k0_pay2 (F := Ideal) x0 x1 = fun i => Fusion.mix (fun l => x0 (ix2 (i 0 : Fin 200) l)) (fun l q' => x1 (ix2 l q')) (i 1 : Fin 64) := by
    funext i
    obtain ⟨p', q', rfl⟩ : ∃ (p' : Fin 200) (q' : Fin 64), i = ix2 p' q' := ⟨i 0, i 1, eq_ix2 i⟩
    exact overlap_apply x0 x1 p' q'
  have g5 : k0_pay5 (F := Ideal) x2 x4 x5 (ix2 p (0 : Fin 1)) = Fusion.gate (fun k => x2 (ix2 p k)) (fun k => x4 (ix2 (0 : Fin 1) k)) (x5 (ix2 (0 : Fin 1) (0 : Fin 1))) := by
    unfold k0_pay5; rw [e3]; exact gate_apply x2 x4 x5 p 0
  have g6 : k0_pay6 (F := Ideal) x3 x6 x7 (ix2 p (0 : Fin 1)) = Fusion.gate (fun k => x3 (ix2 p k)) (fun k => x6 (ix2 (0 : Fin 1) k)) (x7 (ix2 (0 : Fin 1) (0 : Fin 1))) := by
    unfold k0_pay6; rw [e4]; exact gate_apply x3 x6 x7 p 0
  have g7 : logistic (addf (k0_pay7 (F := Ideal) x0 x1 x8) (broadcastTo S200x1 (shapeCast S1x1 x9 shapeCasts_S1x1_S1x1) broadcasts_S1x1_S200x1)) (ix2 p (0 : Fin 1))
      = Fusion.gate (Fusion.mix (fun l => x0 (ix2 p l)) (fun l q' => x1 (ix2 l q'))) (fun k => x8 (ix2 (0 : Fin 1) k)) (x9 (ix2 (0 : Fin 1) (0 : Fin 1))) := by
    unfold k0_pay7; rw [e2]
    exact gate_apply _ x8 x9 p 0
  unfold k0_pay1
  show (broadcastTo S200x64 (k0_pay5 x2 x4 x5) broadcasts_S200x1_S200x64 (ix2 p q) * k0_pay3 x2 (ix2 p q)
      + broadcastTo S200x64 (k0_pay6 x3 x6 x7) broadcasts_S200x1_S200x64 (ix2 p q) * k0_pay4 x3 (ix2 p q))
      + broadcastTo S200x64 (logistic (addf (k0_pay7 x0 x1 x8) (broadcastTo S200x1 (shapeCast S1x1 x9 shapeCasts_S1x1_S1x1) broadcasts_S1x1_S200x1))) broadcasts_S200x1_S200x64 (ix2 p q)
        * k0_pay2 x0 x1 (ix2 p q) = _
  rw [Cert.LibKeepdims.broadcastTo_a1_ab_apply, Cert.LibKeepdims.broadcastTo_a1_ab_apply, Cert.LibKeepdims.broadcastTo_a1_ab_apply,
    g5, g6, g7, e3, e4, overlap_apply]
  rfl

end Cert.KernelIdeal.BlockValue

end
-- ==== Proof.KernelArray.lean ====
/-
  The fused group table as the kernel leaves it: one function of the arrays the region finds.

  Grid point t stages rows 200·t … 200·t + 199 of the group-group matrix and of the two views, and the whole embedding
  table, weight rows and biases; it writes back rows 200·t … 200·t + 199 of the result. The fifty blocks tile the
  10000 rows, so the result array after the run is, at every (r, j), the fused row of row r at feature j.
-/
import proofs.«142578_j90658169684590_2_alg».proof.Proof.Gen.KernelIdeal.Frame
import proofs.«142578_j90658169684590_2_alg».proof.Proof.BlockValue
import Idealize.ShloMosaic.Lib.Pipeline.Value

noncomputable section

namespace Cert.KernelIdeal.ArrayValue

open Cert.KernelIdeal Cert.KernelIdeal.Gen Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The result table as one function of the two views, the group-group matrix, the embedding table, and the three
    weight rows and biases as the kernel receives them (rows [1, 64], biases [1, 1]). -/
def table (hg gi : S10000x64.Idx → EReal) (g : S10000x10000.Idx → EReal) (e : S10000x64.Idx → EReal)
    (w1 : S1x64.Idx → EReal) (b1 : S1x1.Idx → EReal) (w2 : S1x64.Idx → EReal) (b2 : S1x1.Idx → EReal)
    (w3 : S1x64.Idx → EReal) (b3 : S1x1.Idx → EReal) : S10000x64.Idx → EReal := fun i =>
  Fusion.rowFused (fun k => hg (ix2 (i 0 : Fin 10000) k)) (fun k => gi (ix2 (i 0 : Fin 10000) k)) (fun l => g (ix2 (i 0 : Fin 10000) l))
    (fun l q => e (ix2 l q)) (fun k => w1 (ix2 (0 : Fin 1) k)) (fun k => w2 (ix2 (0 : Fin 1) k)) (fun k => w3 (ix2 (0 : Fin 1) k))
    (b1 (ix2 (0 : Fin 1) (0 : Fin 1))) (b2 (ix2 (0 : Fin 1) (0 : Fin 1))) (b3 (ix2 (0 : Fin 1) (0 : Fin 1))) (i 1 : Fin 64)

/-- What one point stores, at an index of its block, from the loaded blocks. -/
theorem out_apply (x0 : Vec Ideal S200x10000 .f32) (x1 : Vec Ideal S10000x64 .bf16) (x2 x3 : Vec Ideal S200x64 .f32)
    (x4 : Vec Ideal S1x64 .f32) (x5 : Vec Ideal S1x1 .f32) (x6 : Vec Ideal S1x64 .f32) (x7 : Vec Ideal S1x1 .f32)
    (x8 : Vec Ideal S1x64 .f32) (x9 : Vec Ideal S1x1 .f32) (p : Fin 200) (q : Fin 64) :
    out0_10 (F := Ideal) x0 x1 x2 x3 x4 x5 x6 x7 x8 x9 (ix2 p q)
      = Fusion.rowFused (fun k => x2 (ix2 p k)) (fun k => x3 (ix2 p k)) (fun l => x0 (ix2 p l)) (fun l q' => x1 (ix2 l q'))
          (fun k => x4 (ix2 (0 : Fin 1) k)) (fun k => x6 (ix2 (0 : Fin 1) k)) (fun k => x8 (ix2 (0 : Fin 1) k))
          (x5 (ix2 (0 : Fin 1) (0 : Fin 1))) (x7 (ix2 (0 : Fin 1) (0 : Fin 1))) (x9 (ix2 (0 : Fin 1) (0 : Fin 1))) q := by
  unfold out0_10
  rw [View.canon_unit_zero hz]
  simp only [View.ld_unit_zero (S := S200x10000) hz, View.ld_unit_zero (S := S10000x64) hz, View.ld_unit_zero (S := S200x64) hz,
    View.ld_unit_zero (S := S1x64) hz, View.ld_unit_zero (S := S1x1) hz]
  exact BlockValue.store_apply x0 x1 x2 x3 x4 x5 x6 x7 x8 x9 p q

/-- The printed index maps, decided over the grid: the slab of the group-group matrix, the two views and the result move
    together down the rows; the embedding table, the weight rows and the biases stay. -/
theorem idx_facts : ∀ t : Fin cfg0.N,
    win0_0.index t (0 : Fin 2) = win0_10.index t (0 : Fin 2) ∧ win0_0.index t (1 : Fin 2) = 0
    ∧ win0_1.index t (0 : Fin 2) = 0 ∧ win0_1.index t (1 : Fin 2) = 0
    ∧ win0_2.index t (0 : Fin 2) = win0_10.index t (0 : Fin 2) ∧ win0_2.index t (1 : Fin 2) = 0
    ∧ win0_3.index t (0 : Fin 2) = win0_10.index t (0 : Fin 2) ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (1 : Fin 2) = 0 ∧ win0_10.index t (0 : Fin 2) < 50 :=
  (by decide +kernel : ∀ t : Fin grid0.N, _)

/-- Every block of 200 rows is some point's. -/
theorem idx_onto : ∀ q0 : Fin 50, ∃ t : Fin cfg0.N, win0_10.index t = ![q0.val, 0] :=
  (by decide +kernel : ∀ q0 : Fin 50, ∃ t : Fin grid0.N, win0_10.index t = ![q0.val, 0])

/-- The row of the tables that row p of point t's blocks is. -/
def rowOf (t : Fin cfg0.N) (p : Fin 200) : Fin 10000 :=
  ⟨win0_10.index t (0 : Fin 2) * 200 + p.val, by
    have h := (idx_facts t).2.2.2.2.2.2.2.2.2.2.2.2.2.2.2.2.2.2.2.2.2
    have hp := p.isLt
    omega⟩

/-- The result table of the arrays as the region finds them. -/
def tableV (c : Dev nD) : S10000x64.Idx → EReal :=
  table (V m c main_v45) (V m c main_v69) (V m c main_arg9) (V m c main_v70) (V m c main_v71) (V m c main_v74)
    (V m c main_v72) (V m c main_v75) (V m c main_v73) (V m c main_v76)

section Reads
variable (c : Dev nD) (t : Fin cfg0.N)

theorem emb10 (p : Fin 200) (q : Fin 64) : ((cfg0.win 10).blk t).view.emb (ix2 p q) = ix2 (rowOf t p) q := by
  obtain ⟨-, -, -, -, -, -, -, -, -, -, -, -, -, -, -, -, -, -, -, -, e1, -⟩ := idx_facts t
  funext a; apply Fin.ext
  match a with
  | ⟨0, _⟩ => show win0_10.index t (0 : Fin 2) * 200 + 1 * p.val = win0_10.index t (0 : Fin 2) * 200 + p.val; omega
  | ⟨1, _⟩ => show win0_10.index t (1 : Fin 2) * 64 + 1 * q.val = q.val; omega

theorem read0 (p : Fin 200) (l : Fin 10000) : iblk m c 0 t (ix2 p l) = V m c main_arg9 (ix2 (rowOf t p) l) := by
  obtain ⟨e0, e1, -⟩ := idx_facts t
  show V m c main_arg9 (((cfg0.win 0).blk t).view.emb (ix2 p l)) = _
  refine congrArg (V m c main_arg9) (funext fun a => Fin.ext ?_)
  match a with
  | ⟨0, _⟩ => show win0_0.index t (0 : Fin 2) * 200 + 1 * p.val = win0_10.index t (0 : Fin 2) * 200 + p.val; omega
  | ⟨1, _⟩ => show win0_0.index t (1 : Fin 2) * 10000 + 1 * l.val = l.val; omega

theorem read1 (l : Fin 10000) (q : Fin 64) : iblk m c 1 t (ix2 l q) = V m c main_v70 (ix2 l q) := by
  obtain ⟨-, -, e0, e1, -⟩ := idx_facts t
  show V m c main_v70 (((cfg0.win 1).blk t).view.emb (ix2 l q)) = _
  refine congrArg (V m c main_v70) (funext fun a => Fin.ext ?_)
  match a with
  | ⟨0, _⟩ => show win0_1.index t (0 : Fin 2) * 10000 + 1 * l.val = l.val; omega
  | ⟨1, _⟩ => show win0_1.index t (1 : Fin 2) * 64 + 1 * q.val = q.val; omega

/-- Rows 200·t … of any 10000 × 64 table, as points of the two views' windows read them. -/
theorem blk2_read (X : S10000x64.Idx → EReal) (p : Fin 200) (k : Fin 64) :
    ((cfg0.win 2).blk t).view.read (Elt Ideal) X (ix2 p k) = X (ix2 (rowOf t p) k) := by
  obtain ⟨-, -, -, -, e0, e1, -⟩ := idx_facts t
  show X (((cfg0.win 2).blk t).view.emb (ix2 p k)) = _
  refine congrArg X (funext fun a => Fin.ext ?_)
  match a with
  | ⟨0, _⟩ => show win0_2.index t (0 : Fin 2) * 200 + 1 * p.val = win0_10.index t (0 : Fin 2) * 200 + p.val; omega
  | ⟨1, _⟩ => show win0_2.index t (1 : Fin 2) * 64 + 1 * k.val = k.val; omega

theorem blk3_read (X : S10000x64.Idx → EReal) (p : Fin 200) (k : Fin 64) :
    ((cfg0.win 3).blk t).view.read (Elt Ideal) X (ix2 p k) = X (ix2 (rowOf t p) k) := by
  obtain ⟨-, -, -, -, -, -, e0, e1, -⟩ := idx_facts t
  show X (((cfg0.win 3).blk t).view.emb (ix2 p k)) = _
  refine congrArg X (funext fun a => Fin.ext ?_)
  match a with
  | ⟨0, _⟩ => show win0_3.index t (0 : Fin 2) * 200 + 1 * p.val = win0_10.index t (0 : Fin 2) * 200 + p.val; omega
  | ⟨1, _⟩ => show win0_3.index t (1 : Fin 2) * 64 + 1 * k.val = k.val; omega

theorem read2 (p : Fin 200) (k : Fin 64) : iblk m c 2 t (ix2 p k) = V m c main_v45 (ix2 (rowOf t p) k) :=
  blk2_read t (V m c main_v45) p k

theorem read3 (p : Fin 200) (k : Fin 64) : iblk m c 3 t (ix2 p k) = V m c main_v69 (ix2 (rowOf t p) k) :=
  blk3_read t (V m c main_v69) p k

theorem read4 (u : Fin 1) (k : Fin 64) : iblk m c 4 t (ix2 u k) = V m c main_v71 (ix2 u k) := by
  obtain ⟨-, -, -, -, -, -, -, -, e0, e1, -⟩ := idx_facts t
  show V m c main_v71 (((cfg0.win 4).blk t).view.emb (ix2 u k)) = _
  refine congrArg (V m c main_v71) (funext fun a => Fin.ext ?_)
  match a with
  | ⟨0, _⟩ => show win0_4.index t (0 : Fin 2) * 1 + 1 * u.val = u.val; omega
  | ⟨1, _⟩ => show win0_4.index t (1 : Fin 2) * 64 + 1 * k.val = k.val; omega

theorem read5 (u v : Fin 1) : iblk m c 5 t (ix2 u v) = V m c main_v74 (ix2 u v) := by
  obtain ⟨-, -, -, -, -, -, -, -, -, -, e0, e1, -⟩ := idx_facts t
  show V m c main_v74 (((cfg0.win 5).blk t).view.emb (ix2 u v)) = _
  refine congrArg (V m c main_v74) (funext fun a => Fin.ext ?_)
  match a with
  | ⟨0, _⟩ => show win0_5.index t (0 : Fin 2) * 1 + 1 * u.val = u.val; omega
  | ⟨1, _⟩ => show win0_5.index t (1 : Fin 2) * 1 + 1 * v.val = v.val; omega

theorem read6 (u : Fin 1) (k : Fin 64) : iblk m c 6 t (ix2 u k) = V m c main_v72 (ix2 u k) := by
  obtain ⟨-, -, -, -, -, -, -, -, -, -, -, -, e0, e1, -⟩ := idx_facts t
  show V m c main_v72 (((cfg0.win 6).blk t).view.emb (ix2 u k)) = _
  refine congrArg (V m c main_v72) (funext fun a => Fin.ext ?_)
  match a with
  | ⟨0, _⟩ => show win0_6.index t (0 : Fin 2) * 1 + 1 * u.val = u.val; omega
  | ⟨1, _⟩ => show win0_6.index t (1 : Fin 2) * 64 + 1 * k.val = k.val; omega

theorem read7 (u v : Fin 1) : iblk m c 7 t (ix2 u v) = V m c main_v75 (ix2 u v) := by
  obtain ⟨-, -, -, -, -, -, -, -, -, -, -, -, -, -, e0, e1, -⟩ := idx_facts t
  show V m c main_v75 (((cfg0.win 7).blk t).view.emb (ix2 u v)) = _
  refine congrArg (V m c main_v75) (funext fun a => Fin.ext ?_)
  match a with
  | ⟨0, _⟩ => show win0_7.index t (0 : Fin 2) * 1 + 1 * u.val = u.val; omega
  | ⟨1, _⟩ => show win0_7.index t (1 : Fin 2) * 1 + 1 * v.val = v.val; omega

theorem read8 (u : Fin 1) (k : Fin 64) : iblk m c 8 t (ix2 u k) = V m c main_v73 (ix2 u k) := by
  obtain ⟨-, -, -, -, -, -, -, -, -, -, -, -, -, -, -, -, e0, e1, -⟩ := idx_facts t
  show V m c main_v73 (((cfg0.win 8).blk t).view.emb (ix2 u k)) = _
  refine congrArg (V m c main_v73) (funext fun a => Fin.ext ?_)
  match a with
  | ⟨0, _⟩ => show win0_8.index t (0 : Fin 2) * 1 + 1 * u.val = u.val; omega
  | ⟨1, _⟩ => show win0_8.index t (1 : Fin 2) * 64 + 1 * k.val = k.val; omega

theorem read9 (u v : Fin 1) : iblk m c 9 t (ix2 u v) = V m c main_v76 (ix2 u v) := by
  obtain ⟨-, -, -, -, -, -, -, -, -, -, -, -, -, -, -, -, -, -, e0, e1, -⟩ := idx_facts t
  show V m c main_v76 (((cfg0.win 9).blk t).view.emb (ix2 u v)) = _
  refine congrArg (V m c main_v76) (funext fun a => Fin.ext ?_)
  match a with
  | ⟨0, _⟩ => show win0_9.index t (0 : Fin 2) * 1 + 1 * u.val = u.val; omega
  | ⟨1, _⟩ => show win0_9.index t (1 : Fin 2) * 1 + 1 * v.val = v.val; omega

/-- What point t stores, at an index of its block, is the table at the block's index of the whole array. -/
theorem stored_apply (y : S200x64.Idx) :
    out0_10 (F := Ideal) (iblk m c 0 t) (iblk m c 1 t) (iblk m c 2 t) (iblk m c 3 t) (iblk m c 4 t) (iblk m c 5 t) (iblk m c 6 t)
        (iblk m c 7 t) (iblk m c 8 t) (iblk m c 9 t) y
      = tableV m c (((cfg0.win 10).blk t).view.emb y) := by
  obtain ⟨p, q, rfl⟩ : ∃ (p : Fin 200) (q : Fin 64), y = ix2 p q := ⟨y 0, y 1, eq_ix2 y⟩
  refine (out_apply (iblk m c 0 t) (iblk m c 1 t) (iblk m c 2 t) (iblk m c 3 t) (iblk m c 4 t) (iblk m c 5 t) (iblk m c 6 t)
    (iblk m c 7 t) (iblk m c 8 t) (iblk m c 9 t) p q).trans ?_
  rw [emb10]
  show _ = Fusion.rowFused (fun k => V m c main_v45 (ix2 (rowOf t p) k)) (fun k => V m c main_v69 (ix2 (rowOf t p) k))
    (fun l => V m c main_arg9 (ix2 (rowOf t p) l)) (fun l q' => V m c main_v70 (ix2 l q')) (fun k => V m c main_v71 (ix2 (0 : Fin 1) k))
    (fun k => V m c main_v72 (ix2 (0 : Fin 1) k)) (fun k => V m c main_v73 (ix2 (0 : Fin 1) k)) (V m c main_v74 (ix2 (0 : Fin 1) (0 : Fin 1)))
    (V m c main_v75 (ix2 (0 : Fin 1) (0 : Fin 1))) (V m c main_v76 (ix2 (0 : Fin 1) (0 : Fin 1))) q
  exact Fusion.rowFused_congr (fun k => read2 m c t p k) (fun k => read3 m c t p k) (fun l => read0 m c t p l) (fun l q' => read1 m c t l q')
    (fun k => read4 m c t 0 k) (fun k => read6 m c t 0 k) (fun k => read8 m c t 0 k) (read5 m c t 0 0) (read7 m c t 0 0) (read9 m c t 0 0) q

end Reads

/-- WHAT POINT t WRITES BACK is block t of the table. -/
theorem flushed_eq (c : Dev nD) (t : Fin cfg0.N) :
    (dats m 0 c).flushed 10 t = ((cfg0.win 10).blk t).view.read (Elt Ideal) (tableV m c) := by
  show (cfg0.win 10).cut (grid0.coords t) ((dats m 0 c).after 10 t) = _
  rw [after0_10]
  funext j
  exact stored_apply m c t j

/-- An index of the array is in point t's block iff each coordinate is in the block's range on its axis. -/
theorem mem_blk (t : Fin cfg0.N) (i : S10000x64.Idx) :
    i ∈ ((cfg0.win 10).blk t).view.set ↔ ∀ a : Fin 2, win0_10.index t a * S200x64.size a ≤ (i a).val ∧ (i a).val < win0_10.index t a * S200x64.size a + S200x64.size a := by
  show i ∈ ((View.whole main_v77).slice (win0_10.rect t)).set ↔ _
  rw [View.set_slice_whole, Rect.mem_set_unit]
  exact Iff.rfl

/-- The fifty blocks cover the table. -/
theorem cover (i : S10000x64.Idx) : ∃ t : Fin cfg0.N, (cfg0.win 10).flush t = true ∧ i ∈ ((cfg0.win 10).blk t).view.set := by
  have hi0 : (i 0).val < 10000 := (i 0).isLt
  have hi1 : (i 1).val < 64 := (i 1).isLt
  obtain ⟨t, ht⟩ := idx_onto ⟨(i 0).val / 200, by omega⟩
  have q0 : win0_10.index t (0 : Fin 2) = (i 0).val / 200 := congrFun ht 0
  have q1 : win0_10.index t (1 : Fin 2) = 0 := congrFun ht 1
  refine ⟨t, flush0_10 t, ?_⟩
  rw [mem_blk]
  intro a
  match a with
  | ⟨0, _⟩ => show win0_10.index t (0 : Fin 2) * 200 ≤ (i 0).val ∧ (i 0).val < win0_10.index t (0 : Fin 2) * 200 + 200; omega
  | ⟨1, _⟩ => show win0_10.index t (1 : Fin 2) * 64 ≤ (i 1).val ∧ (i 1).val < win0_10.index t (1 : Fin 2) * 64 + 64; omega

/-- THE RESULT ARRAY after the run is the table. -/
theorem final (c : Dev nD) : (dats m 0 c).arrAt 10 cfg0.N = tableV m c :=
  (dats m 0 c).arrAt_eq_of_cover 10 (tableV m c) (fun t _ => flushed_eq m c t) cover

end Cert.KernelIdeal.ArrayValue

end
-- ==== Proof.HostBefore.lean ====
/-
  The arrays the fusion kernel finds when it is launched, as terms of the program's arguments.

  Before the launch the program accumulates the hypergraph table (the concatenated user and group embeddings plus three
  rounds of a sparse product), takes its last 10000 rows scaled by 1/4 as the hypergraph view, takes the first 10000
  rows of one sparse product over the group and item embeddings as the group-item view, re-types the group embedding
  table, and re-lays the three weight columns as rows and the three biases as 1 × 1 arrays. The accumulated table and
  the group-item product are the same terms of the arguments in the reference, where they are named by the same
  operations; here they are carried whole and never opened.
-/
import proofs.«142578_j90658169684590_2_alg».proof.Proof.Gen.KernelIdeal.Frame
import proofs.«142578_j90658169684590_2_alg».proof.Proof.Gen.ReferenceIdeal.Read
import Idealize.ShloMosaic.Lib.StableHlo.Run

set_option maxRecDepth 16384

noncomputable section

namespace Cert.KernelIdeal.HostValues

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- The accumulated hypergraph table: the embeddings plus three rounds of the sparse product. -/
def acc : S210000x64.Idx → EReal :=
  Cert.ReferenceIdeal.Read.val_main_v42 (F := Ideal) (m ((c : Thread nD τ).loc main_arg3)) (m ((c : Thread nD τ).loc main_arg4)) (m ((c : Thread nD τ).loc main_arg5)) (m ((c : Thread nD τ).loc main_arg10)) (m ((c : Thread nD τ).loc main_arg12))

/-- One sparse product over the group and item embeddings. -/
def gi : S110000x64.Idx → EReal :=
  Cert.ReferenceIdeal.Read.val_main_v60 (F := Ideal) (m ((c : Thread nD τ).loc main_arg6)) (m ((c : Thread nD τ).loc main_arg7)) (m ((c : Thread nD τ).loc main_arg8)) (m ((c : Thread nD τ).loc main_arg11)) (m ((c : Thread nD τ).loc main_arg12))

set_option maxHeartbeats 40000000 in
/-- The hypergraph view: the last 10000 rows of the accumulated table, scaled by 1/4. -/
theorem V_v45 : (V m c main_v45 : S10000x64.Idx → EReal)
    = mulf (extractStridedSlice S10000x64 ![200000, 0] (acc m c) slices_S210000x64_S10000x64_200000_0)
        (broadcastInDim S10000x64 ![] bcast_S_S10000x64 (constant (F := Ideal) S_ .f32 0x3E800000#32)) := by
  show StableHlo.after hostOps0 (fun b => m (c, b)) (Proc.devRef .tc main_v45) = _
  after_results_simp <;> rfl

set_option maxHeartbeats 40000000 in
/-- The group-item view: the first 10000 rows of the sparse product, as the reference names them. -/
theorem V_v69 : (V m c main_v69 : S10000x64.Idx → EReal)
    = Cert.ReferenceIdeal.Read.val_main_v61 (F := Ideal) (m ((c : Thread nD τ).loc main_arg6)) (m ((c : Thread nD τ).loc main_arg7)) (m ((c : Thread nD τ).loc main_arg8)) (m ((c : Thread nD τ).loc main_arg11)) (m ((c : Thread nD τ).loc main_arg12)) := by
  show StableHlo.after hostOps0 (fun b => m (c, b)) (Proc.devRef .tc main_v69) = _
  after_results_simp <;> rfl

set_option maxHeartbeats 40000000 in
/-- The group embedding table, re-typed: the same extended reals. -/
theorem V_v70 : @Eq (S10000x64.Idx → EReal) (V m c main_v70) (truncf (F := Ideal) (s := S10000x64) (φ := .f32) .bf16 (m ((c : Thread nD τ).loc main_arg12)) bitsLt_bf16_f32) := by
  show StableHlo.after hostOps0 (fun b => m (c, b)) (Proc.devRef .tc main_v70) = _
  after_results_simp <;> rfl

set_option maxHeartbeats 40000000 in
/-- The three weight columns laid as rows, and the three biases as 1 × 1 arrays. -/
theorem V_v71 : (V m c main_v71 : S1x64.Idx → EReal) = shapeCast S1x64 (m ((c : Thread nD τ).loc main_arg13)) shapeCasts_S64x1_S1x64 := by
  show StableHlo.after hostOps0 (fun b => m (c, b)) (Proc.devRef .tc main_v71) = _
  after_results_simp <;> rfl
set_option maxHeartbeats 40000000 in
theorem V_v72 : (V m c main_v72 : S1x64.Idx → EReal) = shapeCast S1x64 (m ((c : Thread nD τ).loc main_arg15)) shapeCasts_S64x1_S1x64 := by
  show StableHlo.after hostOps0 (fun b => m (c, b)) (Proc.devRef .tc main_v72) = _
  after_results_simp <;> rfl
set_option maxHeartbeats 40000000 in
theorem V_v73 : (V m c main_v73 : S1x64.Idx → EReal) = shapeCast S1x64 (m ((c : Thread nD τ).loc main_arg17)) shapeCasts_S64x1_S1x64 := by
  show StableHlo.after hostOps0 (fun b => m (c, b)) (Proc.devRef .tc main_v73) = _
  after_results_simp <;> rfl
set_option maxHeartbeats 40000000 in
theorem V_v74 : (V m c main_v74 : S1x1.Idx → EReal) = shapeCast S1x1 (m ((c : Thread nD τ).loc main_arg14)) shapeCasts_S1_S1x1 := by
  show StableHlo.after hostOps0 (fun b => m (c, b)) (Proc.devRef .tc main_v74) = _
  after_results_simp <;> rfl
set_option maxHeartbeats 40000000 in
theorem V_v75 : (V m c main_v75 : S1x1.Idx → EReal) = shapeCast S1x1 (m ((c : Thread nD τ).loc main_arg16)) shapeCasts_S1_S1x1 := by
  show StableHlo.after hostOps0 (fun b => m (c, b)) (Proc.devRef .tc main_v75) = _
  after_results_simp <;> rfl
set_option maxHeartbeats 40000000 in
theorem V_v76 : (V m c main_v76 : S1x1.Idx → EReal) = shapeCast S1x1 (m ((c : Thread nD τ).loc main_arg18)) shapeCasts_S1_S1x1 := by
  show StableHlo.after hostOps0 (fun b => m (c, b)) (Proc.devRef .tc main_v76) = _
  after_results_simp <;> rfl

/-- The column of row indices a gather reads by: each word moved up by n when negative, laid as a column. -/
def column (n : BitVec 32) (a : IVec S8192 32) : IVec S8192x1 32 :=
  broadcastInDim S8192x1 ![0] bcast_S8192_S8192x1_0 (select (cmpi .slt a (broadcastInDim S8192 ![] bcast_S_S8192 (constantI S_ 32 0#32)))
    (addi a (broadcastInDim S8192 ![] bcast_S_S8192 (constantI S_ 32 n))) a)

set_option maxHeartbeats 40000000 in
/-- The users' rows: rows of the accumulated table, scaled by 1/4. -/
theorem V_v54 : (V m c main_v54 : S8192x64.Idx → EReal)
    = mulf (Host.gather gather_S210000x64_S8192x1_S8192x64_1_0_n_n_0_1_164 (acc m c) (column 210000#32 (m ((c : Thread nD τ).loc main_arg0))))
        (broadcastInDim S8192x64 ![] bcast_S_S8192x64 (constant (F := Ideal) S_ .f32 0x3E800000#32)) := by
  show StableHlo.after hostOps0 (fun b => m (c, b)) (Proc.devRef .tc main_v54) = _
  after_results_simp <;> rfl

end Cert.KernelIdeal.HostValues

end
-- ==== Proof.HostTail.lean ====
/-
  What the program returns, read off the run around the launch.

  After the launch the program gathers rows of the kernel's result table by the positive and the negative group
  indices, and rows of the user and group embedding tables by the user and group indices; the users' rows of the
  accumulated table were gathered before the launch and nothing after it writes them.
-/
import proofs.«142578_j90658169684590_2_alg».proof.Proof.Gen.KernelIdeal.Frame
import proofs.«142578_j90658169684590_2_alg».proof.Proof.HostBefore
import Idealize.ShloMosaic.Lib.StableHlo.Run

set_option maxRecDepth 16384

noncomputable section

namespace Cert.KernelIdeal.HostValues

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (c : Dev nD)

/-- The users' rows end as they were before the launch. -/
theorem tail_v54 : Pipeline.afterTail₀ cfgs (dats m) 0 (V0 m) [hostOps1] c main_v54 = V m c main_v54 := by
  unfold Pipeline.afterTail₀
  rw [StableHlo.after_of_forall_not_mem (b := Proc.devRef .tc main_v54) _ _ (List.forall_iff_forall_mem.mp (by
      simp only [hostOps1, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_v54 (by exact (by decide : ∀ w, Pipeline.arrRef spec0 w ≠ main_v54))]

/-- After the launch the kernel's result buffer holds the result array. -/
theorem withArrays_v77 : (Pipeline.withArrays spec0 c (V0 m c) (fun w => (dats m 0 c).arrAt w cfg0.N)) (Proc.devRef .tc main_v77) = (dats m 0 c).arrAt 10 cfg0.N :=
  Pipeline.withArrays_arr spec0 launch0.win.arr_inj c _ _ 10

/-- An argument no window stages is as launched. -/
theorem withArrays_arg (b : Ref sig .tc) (hb : ∀ w, Pipeline.arrRef spec0 w ≠ b) {x : Buf (Elt Ideal) ((c : Thread nD τ).loc b)}
    (hV : V m c b = x) : (Pipeline.withArrays spec0 c (V0 m c) (fun w => (dats m 0 c).arrAt w cfg0.N)) (Proc.devRef .tc b) = x :=
  (Pipeline.withArrays_of_ne _ c (V0 m c) _ b hb).trans hV

set_option maxHeartbeats 4000000 in
/-- The positive groups' rows of the kernel's result table. -/
theorem tail_v84 : Pipeline.afterTail₀ cfgs (dats m) 0 (V0 m) [hostOps1] c main_v84
    = Host.gather gather_S10000x64_S8192x1_S8192x64_1_0_n_n_0_1_164 ((dats m 0 c).arrAt 10 cfg0.N) (column 10000#32 (m ((c : Thread nD τ).loc main_arg1))) := by
  unfold Pipeline.afterTail₀
  show StableHlo.after hostOps1 _ (Proc.devRef .tc main_v84) = _
  after_results_simp
  show Host.gather gather_S10000x64_S8192x1_S8192x64_1_0_n_n_0_1_164 ((Pipeline.withArrays spec0 c (V0 m c) (fun w => (dats m 0 c).arrAt w cfg0.N)) (Proc.devRef .tc main_v77))
      (column 10000#32 ((Pipeline.withArrays spec0 c (V0 m c) (fun w => (dats m 0 c).arrAt w cfg0.N)) (Proc.devRef .tc main_arg1))) = _
  rw [withArrays_v77 m c, withArrays_arg m c main_arg1 (by decide) (V_main_arg1 m c)]

set_option maxHeartbeats 4000000 in
/-- The negative groups' rows of the kernel's result table. -/
theorem tail_v91 : Pipeline.afterTail₀ cfgs (dats m) 0 (V0 m) [hostOps1] c main_v91
    = Host.gather gather_S10000x64_S8192x1_S8192x64_1_0_n_n_0_1_164 ((dats m 0 c).arrAt 10 cfg0.N) (column 10000#32 (m ((c : Thread nD τ).loc main_arg2))) := by
  unfold Pipeline.afterTail₀
  show StableHlo.after hostOps1 _ (Proc.devRef .tc main_v91) = _
  after_results_simp
  show Host.gather gather_S10000x64_S8192x1_S8192x64_1_0_n_n_0_1_164 ((Pipeline.withArrays spec0 c (V0 m c) (fun w => (dats m 0 c).arrAt w cfg0.N)) (Proc.devRef .tc main_v77))
      (column 10000#32 ((Pipeline.withArrays spec0 c (V0 m c) (fun w => (dats m 0 c).arrAt w cfg0.N)) (Proc.devRef .tc main_arg2))) = _
  rw [withArrays_v77 m c, withArrays_arg m c main_arg2 (by decide) (V_main_arg2 m c)]

set_option maxHeartbeats 4000000 in
/-- The users' rows of the user embedding table. -/
theorem tail_v98 : Pipeline.afterTail₀ cfgs (dats m) 0 (V0 m) [hostOps1] c main_v98
    = Host.gather gather_S200000x64_S8192x1_S8192x64_1_0_n_n_0_1_164 (m ((c : Thread nD τ).loc main_arg10)) (column 200000#32 (m ((c : Thread nD τ).loc main_arg0))) := by
  unfold Pipeline.afterTail₀
  show StableHlo.after hostOps1 _ (Proc.devRef .tc main_v98) = _
  after_results_simp
  show Host.gather gather_S200000x64_S8192x1_S8192x64_1_0_n_n_0_1_164 ((Pipeline.withArrays spec0 c (V0 m c) (fun w => (dats m 0 c).arrAt w cfg0.N)) (Proc.devRef .tc main_arg10))
      (column 200000#32 ((Pipeline.withArrays spec0 c (V0 m c) (fun w => (dats m 0 c).arrAt w cfg0.N)) (Proc.devRef .tc main_arg0))) = _
  rw [withArrays_arg m c main_arg10 (by decide) (V_main_arg10 m c), withArrays_arg m c main_arg0 (by decide) (V_main_arg0 m c)]

set_option maxHeartbeats 4000000 in
/-- The positive groups' rows of the group embedding table. -/
theorem tail_v105 : Pipeline.afterTail₀ cfgs (dats m) 0 (V0 m) [hostOps1] c main_v105
    = Host.gather gather_S10000x64_S8192x1_S8192x64_1_0_n_n_0_1_164 (m ((c : Thread nD τ).loc main_arg12)) (column 10000#32 (m ((c : Thread nD τ).loc main_arg1))) := by
  unfold Pipeline.afterTail₀
  show StableHlo.after hostOps1 _ (Proc.devRef .tc main_v105) = _
  after_results_simp
  show Host.gather gather_S10000x64_S8192x1_S8192x64_1_0_n_n_0_1_164 ((Pipeline.withArrays spec0 c (V0 m c) (fun w => (dats m 0 c).arrAt w cfg0.N)) (Proc.devRef .tc main_arg12))
      (column 10000#32 ((Pipeline.withArrays spec0 c (V0 m c) (fun w => (dats m 0 c).arrAt w cfg0.N)) (Proc.devRef .tc main_arg1))) = _
  rw [withArrays_arg m c main_arg12 (by decide) (V_main_arg12 m c), withArrays_arg m c main_arg1 (by decide) (V_main_arg1 m c)]

set_option maxHeartbeats 4000000 in
/-- The negative groups' rows of the group embedding table. -/
theorem tail_v112 : Pipeline.afterTail₀ cfgs (dats m) 0 (V0 m) [hostOps1] c main_v112
    = Host.gather gather_S10000x64_S8192x1_S8192x64_1_0_n_n_0_1_164 (m ((c : Thread nD τ).loc main_arg12)) (column 10000#32 (m ((c : Thread nD τ).loc main_arg2))) := by
  unfold Pipeline.afterTail₀
  show StableHlo.after hostOps1 _ (Proc.devRef .tc main_v112) = _
  after_results_simp
  show Host.gather gather_S10000x64_S8192x1_S8192x64_1_0_n_n_0_1_164 ((Pipeline.withArrays spec0 c (V0 m c) (fun w => (dats m 0 c).arrAt w cfg0.N)) (Proc.devRef .tc main_arg12))
      (column 10000#32 ((Pipeline.withArrays spec0 c (V0 m c) (fun w => (dats m 0 c).arrAt w cfg0.N)) (Proc.devRef .tc main_arg2))) = _
  rw [withArrays_arg m c main_arg12 (by decide) (V_main_arg12 m c), withArrays_arg m c main_arg2 (by decide) (V_main_arg2 m c)]

end Cert.KernelIdeal.HostValues

end
-- ==== Proof.KernelRun.lean ====
/-
  The kernel's program, run: what each returned array holds, as terms of the arguments.

  The users' rows are rows of the accumulated hypergraph table scaled by 1/4; the two group results are rows of the
  fused table; the last three are rows of the user and group embedding tables. The arguments end unchanged.
-/
import proofs.«142578_j90658169684590_2_alg».proof.Proof.Gen.KernelIdeal.Frame
import proofs.«142578_j90658169684590_2_alg».proof.Proof.KernelArray
import proofs.«142578_j90658169684590_2_alg».proof.Proof.HostBefore
import proofs.«142578_j90658169684590_2_alg».proof.Proof.HostTail

set_option maxRecDepth 16384

noncomputable section

namespace Cert.KernelIdeal.KernelRun

open Cert.KernelIdeal Cert.KernelIdeal.Gen Cert.KernelIdeal.HostValues Cert.KernelIdeal.ArrayValue
open Idealize.ShloMosaic Idealize.ShloMosaic.TcCoe Idealize.SL.Sem

variable (m : (ℓ : Loc nD τ sig) → Buf (Elt Ideal) ℓ) (ρ : Dev nD → PrngReg)

set_option maxHeartbeats 4000000 in
theorem run : θ_run defs (onTc (τ := τ) (main (F := Ideal))) ⟨m, fun _ => 0, ρ⟩ (fun r => ∀ c : Dev nD,
      r.2.mem ((c.tc : Thread nD τ).loc main_v54) = V m c main_v54
      ∧ r.2.mem ((c.tc : Thread nD τ).loc main_v84) = Host.gather gather_S10000x64_S8192x1_S8192x64_1_0_n_n_0_1_164 (tableV m c) (column 10000#32 (m ((c : Thread nD τ).loc main_arg1)))
      ∧ r.2.mem ((c.tc : Thread nD τ).loc main_v91) = Host.gather gather_S10000x64_S8192x1_S8192x64_1_0_n_n_0_1_164 (tableV m c) (column 10000#32 (m ((c : Thread nD τ).loc main_arg2)))
      ∧ r.2.mem ((c.tc : Thread nD τ).loc main_v98) = Host.gather gather_S200000x64_S8192x1_S8192x64_1_0_n_n_0_1_164 (m ((c : Thread nD τ).loc main_arg10)) (column 200000#32 (m ((c : Thread nD τ).loc main_arg0)))
      ∧ r.2.mem ((c.tc : Thread nD τ).loc main_v105) = Host.gather gather_S10000x64_S8192x1_S8192x64_1_0_n_n_0_1_164 (m ((c : Thread nD τ).loc main_arg12)) (column 10000#32 (m ((c : Thread nD τ).loc main_arg1)))
      ∧ r.2.mem ((c.tc : Thread nD τ).loc main_v112) = Host.gather gather_S10000x64_S8192x1_S8192x64_1_0_n_n_0_1_164 (m ((c : Thread nD τ).loc main_arg12)) (column 10000#32 (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun _ h c => ⟨((h c).2 main_v54 (Pipeline.mem_restRefs_of main_v54 (by decide) (by decide))).trans (tail_v54 m c),
      ((h c).2 main_v84 (Pipeline.mem_restRefs_of main_v84 (by decide) (by decide))).trans ((tail_v84 m c).trans (congrArg (fun X => Host.gather gather_S10000x64_S8192x1_S8192x64_1_0_n_n_0_1_164 X _) (final m c))),
      ((h c).2 main_v91 (Pipeline.mem_restRefs_of main_v91 (by decide) (by decide))).trans ((tail_v91 m c).trans (congrArg (fun X => Host.gather gather_S10000x64_S8192x1_S8192x64_1_0_n_n_0_1_164 X _) (final m c))),
      ((h c).2 main_v98 (Pipeline.mem_restRefs_of main_v98 (by decide) (by decide))).trans (tail_v98 m c),
      ((h c).2 main_v105 (Pipeline.mem_restRefs_of main_v105 (by decide) (by decide))).trans (tail_v105 m c),
      ((h c).2 main_v112 (Pipeline.mem_restRefs_of main_v112 (by decide) (by decide))).trans (tail_v112 m c),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      (((h c).2 main_arg8 (Pipeline.mem_restRefs_of main_arg8 (by decide) (by decide))).trans (W_main_arg8 m (dats m) c)),
      ((h c).1 0).trans ((((dats m) 0 c).arrAt_in 0 rfl _).trans ((A_eq m c 0).trans (V_main_arg9 m c))),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c))⟩)
    (run_main m ρ)

end Cert.KernelIdeal.KernelRun

end
-- ==== Proof.RefFused.lean ====
/-
  The reference's fused group table, read at an index.

  The reference computes the three gates by matrix products with the 64 × 1 weight columns, spells the logistic
  function as 1 / (1 + exp (−s)), and scales each view by its gate broadcast along the row. Entry (r, j) of the result
  is the fused row (Fusion.rowFused) of row r of the three views at feature j.
-/
import proofs.«142578_j90658169684590_2_alg».proof.Proof.Gen.ReferenceIdeal.Read
import proofs.«142578_j90658169684590_2_alg».proof.Proof.Fusion

noncomputable section

namespace Cert.ReferenceIdeal.RefFused

open Cert.ReferenceIdeal Cert.ReferenceIdeal.Read Idealize.ShloMosaic Idealize.ShloMosaic.ValueIdx

/-- The word 0x3F800000 is the number one. -/
theorem ofBits_one : Ideal.ofBits .f32 0x3F800000#32 = 1 := by
  simp [Ideal.ofBits, Ideal.ieee, -EReal.coe_mul]; norm_num

/-- 1 / (1 + exp (−s)), in the host's operations, is the logistic function. -/
theorem hostGate (s : EReal) :
    FloatOps.hostDivf (F := Ideal) (φ := .f32) (FloatOps.ofBits .f32 0x3F800000#32)
      (FloatOps.addf (FloatOps.ofBits .f32 0x3F800000#32) (FloatOps.hostUnary .exp (FloatOps.hostNegf s))) = Ideal.logistic s := by
  show Ideal.div (Ideal.ofBits .f32 0x3F800000#32) (Ideal.ofBits .f32 0x3F800000#32 + Ideal.exp (-s)) = Ideal.div 1 (1 + Ideal.exp (-s))
  rw [ofBits_one]

theorem lidx63 (r : Fin 10000) (u : Fin 1) (k : Fin 64) : lidx_main_v63 (ix2 r u) k = ix2 r k :=
  funext fun a => Fin.ext (by match a with | ⟨0, _⟩ => rfl | ⟨1, _⟩ => rfl)
theorem ridx63 (r : Fin 10000) (u : Fin 1) (k : Fin 64) : ridx_main_v63 (ix2 r u) k = ix2 k (0 : Fin 1) :=
  funext fun a => Fin.ext (by match a with | ⟨0, _⟩ => rfl | ⟨1, _⟩ => (show (u : ℕ) = 0; omega))
theorem idx64 (i : S10000x1.Idx) : idx_main_v64 (idx_main_v65 i) = ix1 (0 : Fin 1) :=
  funext fun a => Fin.ext (by match a with | ⟨0, _⟩ => rfl)

/-- The hypergraph gate of group r. -/
theorem gate1_apply (x3 x4 : (⟨S3000000, .i32⟩ : BufTy).Contents (Elt Ideal)) (x5 : (⟨S3000000, .f32⟩ : BufTy).Contents (Elt Ideal)) (x10 : (⟨S200000x64, .f32⟩ : BufTy).Contents (Elt Ideal)) (x12 : (⟨S10000x64, .f32⟩ : BufTy).Contents (Elt Ideal)) (x13 : (⟨S64x1, .f32⟩ : BufTy).Contents (Elt Ideal)) (x14 : (⟨S1, .f32⟩ : BufTy).Contents (Elt Ideal)) (r : Fin 10000) (u : Fin 1) :
    val_main_v72 (F := Ideal) x3 x4 x5 x10 x12 x13 x14 (ix2 r u)
      = Fusion.gate (fun k => val_main_v46 (F := Ideal) x3 x4 x5 x10 x12 (ix2 r k)) (fun k => x13 (ix2 k (0 : Fin 1))) (x14 (ix1 (0 : Fin 1))) := by
  rw [val_main_v72_apply, val_main_v71_apply, val_main_cst_12_apply, val_main_v70_apply, val_main_v69_apply, val_main_cst_11_apply,
    val_main_v68_apply, val_main_v67_apply, val_main_v66_apply, val_main_v63_apply, val_main_v65_apply, val_main_v64_apply, hostGate]
  simp only [lidx63, ridx63, idx64]
  rfl

theorem lidx73 (r : Fin 10000) (u : Fin 1) (k : Fin 64) : lidx_main_v73 (ix2 r u) k = ix2 r k :=
  funext fun a => Fin.ext (by match a with | ⟨0, _⟩ => rfl | ⟨1, _⟩ => rfl)
theorem ridx73 (r : Fin 10000) (u : Fin 1) (k : Fin 64) : ridx_main_v73 (ix2 r u) k = ix2 k (0 : Fin 1) :=
  funext fun a => Fin.ext (by match a with | ⟨0, _⟩ => rfl | ⟨1, _⟩ => (show (u : ℕ) = 0; omega))
theorem idx74 (i : S10000x1.Idx) : idx_main_v74 (idx_main_v75 i) = ix1 (0 : Fin 1) :=
  funext fun a => Fin.ext (by match a with | ⟨0, _⟩ => rfl)
theorem lidx83 (r : Fin 10000) (u : Fin 1) (k : Fin 64) : lidx_main_v83 (ix2 r u) k = ix2 r k :=
  funext fun a => Fin.ext (by match a with | ⟨0, _⟩ => rfl | ⟨1, _⟩ => rfl)
theorem ridx83 (r : Fin 10000) (u : Fin 1) (k : Fin 64) : ridx_main_v83 (ix2 r u) k = ix2 k (0 : Fin 1) :=
  funext fun a => Fin.ext (by match a with | ⟨0, _⟩ => rfl | ⟨1, _⟩ => (show (u : ℕ) = 0; omega))
theorem idx84 (i : S10000x1.Idx) : idx_main_v84 (idx_main_v85 i) = ix1 (0 : Fin 1) :=
  funext fun a => Fin.ext (by match a with | ⟨0, _⟩ => rfl)
theorem lidx62 (r : Fin 10000) (q : Fin 64) (l : Fin 10000) : lidx_main_v62 (ix2 r q) l = ix2 r l :=
  funext fun a => Fin.ext (by match a with | ⟨0, _⟩ => rfl | ⟨1, _⟩ => rfl)
theorem ridx62 (r : Fin 10000) (q : Fin 64) (l : Fin 10000) : ridx_main_v62 (ix2 r q) l = ix2 l q :=
  funext fun a => Fin.ext (by match a with | ⟨0, _⟩ => rfl | ⟨1, _⟩ => rfl)

/-- The group-item gate of group r. -/
theorem gate2_apply (x6 x7 : (⟨S2000000, .i32⟩ : BufTy).Contents (Elt Ideal)) (x8 : (⟨S2000000, .f32⟩ : BufTy).Contents (Elt Ideal)) (x11 : (⟨S100000x64, .f32⟩ : BufTy).Contents (Elt Ideal)) (x12 : (⟨S10000x64, .f32⟩ : BufTy).Contents (Elt Ideal)) (x15 : (⟨S64x1, .f32⟩ : BufTy).Contents (Elt Ideal)) (x16 : (⟨S1, .f32⟩ : BufTy).Contents (Elt Ideal)) (r : Fin 10000) (u : Fin 1) :
    val_main_v82 (F := Ideal) x6 x7 x8 x11 x12 x15 x16 (ix2 r u)
      = Fusion.gate (fun k => val_main_v61 (F := Ideal) x6 x7 x8 x11 x12 (ix2 r k)) (fun k => x15 (ix2 k (0 : Fin 1))) (x16 (ix1 (0 : Fin 1))) := by
  rw [val_main_v82_apply, val_main_v81_apply, val_main_cst_14_apply, val_main_v80_apply, val_main_v79_apply, val_main_cst_13_apply,
    val_main_v78_apply, val_main_v77_apply, val_main_v76_apply, val_main_v73_apply, val_main_v75_apply, val_main_v74_apply, hostGate]
  simp only [lidx73, ridx73, idx74]
  rfl

/-- The overlap view at (r, q): row r of the group-group matrix times column q of the embedding table. -/
theorem overlap_apply (x9 : (⟨S10000x10000, .f32⟩ : BufTy).Contents (Elt Ideal)) (x12 : (⟨S10000x64, .f32⟩ : BufTy).Contents (Elt Ideal)) (r : Fin 10000) (q : Fin 64) :
    val_main_v62 (F := Ideal) x9 x12 (ix2 r q) = Fusion.mix (fun l => x9 (ix2 r l)) (fun l q' => x12 (ix2 l q')) q := by
  rw [val_main_v62_apply]
  simp only [lidx62, ridx62]
  rfl

/-- The overlap gate of group r. -/
theorem gate3_apply (x9 : (⟨S10000x10000, .f32⟩ : BufTy).Contents (Elt Ideal)) (x12 : (⟨S10000x64, .f32⟩ : BufTy).Contents (Elt Ideal)) (x17 : (⟨S64x1, .f32⟩ : BufTy).Contents (Elt Ideal)) (x18 : (⟨S1, .f32⟩ : BufTy).Contents (Elt Ideal)) (r : Fin 10000) (u : Fin 1) :
    val_main_v92 (F := Ideal) x9 x12 x17 x18 (ix2 r u)
      = Fusion.gate (Fusion.mix (fun l => x9 (ix2 r l)) (fun l q' => x12 (ix2 l q'))) (fun k => x17 (ix2 k (0 : Fin 1))) (x18 (ix1 (0 : Fin 1))) := by
  rw [val_main_v92_apply, val_main_v91_apply, val_main_cst_16_apply, val_main_v90_apply, val_main_v89_apply, val_main_cst_15_apply,
    val_main_v88_apply, val_main_v87_apply, val_main_v86_apply, val_main_v83_apply, val_main_v85_apply, val_main_v84_apply, hostGate]
  simp only [lidx83, ridx83, idx84, overlap_apply]
  rfl

theorem idx93 (r : Fin 10000) (j : Fin 64) : idx_main_v93 (ix2 r j) = ix2 r (0 : Fin 1) :=
  funext fun a => Fin.ext (by match a with | ⟨0, _⟩ => rfl | ⟨1, _⟩ => rfl)
theorem idx95 (r : Fin 10000) (j : Fin 64) : idx_main_v95 (ix2 r j) = ix2 r (0 : Fin 1) :=
  funext fun a => Fin.ext (by match a with | ⟨0, _⟩ => rfl | ⟨1, _⟩ => rfl)
theorem idx98 (r : Fin 10000) (j : Fin 64) : idx_main_v98 (ix2 r j) = ix2 r (0 : Fin 1) :=
  funext fun a => Fin.ext (by match a with | ⟨0, _⟩ => rfl | ⟨1, _⟩ => rfl)

/-- The reference's fused table at (r, j), over its two scattered views. -/
theorem groups_apply (x3 x4 : (⟨S3000000, .i32⟩ : BufTy).Contents (Elt Ideal)) (x5 : (⟨S3000000, .f32⟩ : BufTy).Contents (Elt Ideal)) (x6 x7 : (⟨S2000000, .i32⟩ : BufTy).Contents (Elt Ideal)) (x8 : (⟨S2000000, .f32⟩ : BufTy).Contents (Elt Ideal))
    (x9 : (⟨S10000x10000, .f32⟩ : BufTy).Contents (Elt Ideal)) (x10 : (⟨S200000x64, .f32⟩ : BufTy).Contents (Elt Ideal)) (x11 : (⟨S100000x64, .f32⟩ : BufTy).Contents (Elt Ideal)) (x12 : (⟨S10000x64, .f32⟩ : BufTy).Contents (Elt Ideal))
    (x13 : (⟨S64x1, .f32⟩ : BufTy).Contents (Elt Ideal)) (x14 : (⟨S1, .f32⟩ : BufTy).Contents (Elt Ideal)) (x15 : (⟨S64x1, .f32⟩ : BufTy).Contents (Elt Ideal)) (x16 : (⟨S1, .f32⟩ : BufTy).Contents (Elt Ideal))
    (x17 : (⟨S64x1, .f32⟩ : BufTy).Contents (Elt Ideal)) (x18 : (⟨S1, .f32⟩ : BufTy).Contents (Elt Ideal)) (r : Fin 10000) (j : Fin 64) :
    val_main_v100 (F := Ideal) x3 x4 x5 x6 x7 x8 x9 x10 x11 x12 x13 x14 x15 x16 x17 x18 (ix2 r j)
      = Fusion.rowFused (fun k => val_main_v46 (F := Ideal) x3 x4 x5 x10 x12 (ix2 r k)) (fun k => val_main_v61 (F := Ideal) x6 x7 x8 x11 x12 (ix2 r k))
          (fun l => x9 (ix2 r l)) (fun l q' => x12 (ix2 l q')) (fun k => x13 (ix2 k (0 : Fin 1))) (fun k => x15 (ix2 k (0 : Fin 1)))
          (fun k => x17 (ix2 k (0 : Fin 1))) (x14 (ix1 (0 : Fin 1))) (x16 (ix1 (0 : Fin 1))) (x18 (ix1 (0 : Fin 1))) j := by
  rw [val_main_v100_apply, val_main_v97_apply, val_main_v94_apply, val_main_v96_apply, val_main_v99_apply,
    val_main_v93_apply, val_main_v95_apply, val_main_v98_apply, idx93, idx95, idx98, gate1_apply, gate2_apply, gate3_apply, overlap_apply]
  rfl

end Cert.ReferenceIdeal.RefFused

end
-- ==== Proof.LibNodeScatter.lean ====
/-
  Rows of a node-by-feature array gathered, and accumulated, along the node axis, read at an index.

  The operand is an array over (node, feature) of extents `N, D`; the indices are a column of `M` words, each
  naming a node; the other array is over (index, feature) of extents `M, D`.
  * An ACCUMULATING SCATTER adds update row `e` to operand row `idx[e]` (the word read signed; a row outside
    `[0, N)` is dropped). On the extended reals entry `(n, d)` of the result is the operand's entry plus the sum,
    over the rows `e` with `idx[e] = n`, of update entry `(e, d)` (`hostScatterAdd_nodes_apply`), because update
    entry `(e, d)` lands exactly at `(idx[e], d)` (`resultIdx?_nodes`).
  * A GATHER reads operand row `idx[e]`, the word read signed and clamped into `[0, N − 1]`, into result row `e`
    (`gather_nodes_apply`).
  Neither statement depends on the feature extent `D`: the same rows are selected whatever the width of a row.
-/
import Idealize.ShloMosaic.PureOps.Ideal
import Idealize.ShloMosaic.Lib.ValueIdx

noncomputable section
open scoped BigOperators
namespace Cert.LibNodes

open Idealize.ShloMosaic Idealize.ShloMosaic.ValueIdx

/-- The dimension numbers of a scatter of whole rows into a node-by-feature array: update axis 1 is the window
    axis, operand axis 0 is the inserted one and the one the index names. -/
abbrev nodeScatterDims (N D M : Nat)
    (wf : ScatterDims.WF ⟨2, ![N, D]⟩ ⟨2, ![M, 1]⟩ ⟨2, ![M, D]⟩ [1] [0] [0] 1) :
    ScatterDims ⟨2, ![N, D]⟩ ⟨2, ![M, 1]⟩ ⟨2, ![M, D]⟩ where
  updateWindowDims := [1]
  insertedWindowDims := [0]
  scatterDimsToOperandDims := [0]
  indexVectorDim := 1
  wf := wf

variable {N D M w : Nat} (wf : ScatterDims.WF ⟨2, ![N, D]⟩ ⟨2, ![M, 1]⟩ ⟨2, ![M, D]⟩ [1] [0] [0] 1)

/-- On the node axis an update's start is its row's index word, read signed. -/
theorem start0 (j : (⟨2, ![M, D]⟩ : Shape).Idx) (idx : IVec ⟨2, ![M, 1]⟩ w) :
    (nodeScatterDims N D M wf).start j idx 0 = (idx (ix2 (j 0) (0 : Fin 1))).toInt := by
  unfold ScatterDims.start
  rw [dif_pos (show (0 : Fin 2) ∈ (nodeScatterDims N D M wf).scatterDimsToOperandDims from List.mem_singleton.mpr rfl)]
  congr 2
  funext b; refine Fin.ext ?_
  match b with
  | ⟨0, _⟩ => rfl
  | ⟨1, _⟩ => rfl

/-- Update entry `(e, d)` lands at `(n, d')` exactly when the feature agrees and row `e`'s index word, read
    signed, is `n`. -/
theorem resultIdx?_nodes (e : Fin M) (d : Fin D) (idx : IVec ⟨2, ![M, 1]⟩ w) (n : Fin N) (d' : Fin D) :
    (nodeScatterDims N D M wf).resultIdx? (ix2 e d) idx = some (ix2 n d') ↔
      d' = d ∧ (idx (ix2 e (0 : Fin 1))).toInt = (n.val : ℤ) := by
  have hs : (nodeScatterDims N D M wf).start (ix2 e d) idx 0 = (idx (ix2 e (0 : Fin 1))).toInt := start0 wf _ idx
  unfold ScatterDims.resultIdx?
  split
  · next h =>
    rw [Option.some.injEq]
    constructor
    · intro hf
      have h0 := congrArg (fun f => (f 0).val) hf
      have h1 := congrArg (fun f => (f 1).val) hf
      have g0 := (h 0).1
      simp only at h0 h1
      refine ⟨Fin.ext ?_, ?_⟩
      · have : ((0 : ℤ) + ((d.val : ℕ) : ℤ)).toNat = d'.val := h1
        omega
      · have e1 : ((nodeScatterDims N D M wf).start (ix2 e d) idx 0 + ((0 : ℕ) : ℤ)).toNat = n.val := h0
        have e2 : 0 ≤ (nodeScatterDims N D M wf).start (ix2 e d) idx 0 + ((0 : ℕ) : ℤ) := g0
        rw [hs] at e1 e2
        omega
    · rintro ⟨rfl, hx⟩
      funext a
      refine Fin.ext ?_
      match a with
      | ⟨0, _⟩ =>
        show ((nodeScatterDims N D M wf).start (ix2 e d') idx 0 + ((0 : ℕ) : ℤ)).toNat = n.val
        rw [hs, hx]; omega
      | ⟨1, _⟩ => show ((0 : ℤ) + ((d'.val : ℕ) : ℤ)).toNat = d'.val; omega
  · next h =>
    constructor
    · intro hf; exact absurd hf (by simp)
    · rintro ⟨rfl, hx⟩
      exfalso; apply h
      intro a
      match a with
      | ⟨0, _⟩ =>
        show 0 ≤ (nodeScatterDims N D M wf).start (ix2 e d') idx 0 + ((0 : ℕ) : ℤ)
          ∧ (nodeScatterDims N D M wf).start (ix2 e d') idx 0 + ((0 : ℕ) : ℤ) < ((N : ℕ) : ℤ)
        rw [hs, hx]; have := n.isLt; omega
      | ⟨1, _⟩ =>
        show 0 ≤ (0 : ℤ) + ((d'.val : ℕ) : ℤ) ∧ (0 : ℤ) + ((d'.val : ℕ) : ℤ) < ((D : ℕ) : ℤ)
        have := d'.isLt; omega

/-- The accumulating row scatter read at `(n, d)`: the operand's entry plus the update entries `(e, d)` of the
    rows `e` whose index word names node `n`. -/
theorem hostScatterAdd_nodes_apply (x : (⟨2, ![N, D]⟩ : Shape).Idx → EReal) (idx : IVec ⟨2, ![M, 1]⟩ w)
    (upd : (⟨2, ![M, D]⟩ : Shape).Idx → EReal) (n : Fin N) (d : Fin D) :
    Ideal.hostScatterAdd (nodeScatterDims N D M wf) x idx upd (ix2 n d)
      = x (ix2 n d) + ∑ e : Fin M, if (idx (ix2 e (0 : Fin 1))).toInt = (n.val : ℤ) then upd (ix2 e d) else 0 := by
  unfold Ideal.hostScatterAdd
  refine congrArg (x (ix2 n d) + ·) ?_
  rw [← Finset.sum_filter]
  refine Finset.sum_nbij' (fun j => (j 0 : Fin M)) (fun e => ix2 e d) ?_ ?_ ?_ ?_ ?_
  · intro j hj
    have hj' := (Finset.mem_filter.mp hj).2
    rw [eq_ix2 j] at hj'
    exact Finset.mem_filter.mpr ⟨Finset.mem_univ _, ((resultIdx?_nodes wf _ _ idx n d).mp hj').2⟩
  · intro e he
    have he' := (Finset.mem_filter.mp he).2
    exact Finset.mem_filter.mpr ⟨Finset.mem_univ _, (resultIdx?_nodes wf e d idx n d).mpr ⟨rfl, he'⟩⟩
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact hjj.symm
  · intro e _; rfl
  · intro j hj
    have hj' := (Finset.mem_filter.mp hj).2
    rw [eq_ix2 j] at hj'
    obtain ⟨h1, -⟩ := (resultIdx?_nodes wf _ _ idx n d).mp hj'
    have hjj : j = ix2 (j 0) d := by rw [h1]; exact eq_ix2 j
    exact congrArg upd hjj

/-- The dimension numbers of a gather of whole rows of a node-by-feature array: a column of `M` start indices
    naming nodes, the result over (index, feature). -/
abbrev nodeGatherDims (N D M : Nat)
    (wf : GatherDims.WF ⟨2, ![N, D]⟩ ⟨2, ![M, 1]⟩ ⟨2, ![M, D]⟩ [1] [0] [] [0] [] 1 ![1, D]) :
    GatherDims ⟨2, ![N, D]⟩ ⟨2, ![M, 1]⟩ ⟨2, ![M, D]⟩ where
  offsetDims := [1]
  collapsedSliceDims := [0]
  operandBatchingDims := []
  startIndicesBatchingDims := []
  startIndexMap := [0]
  indexVectorDim := 1
  sliceSizes := ![1, D]
  wf := wf

/-- The node a start-index word names: read signed and clamped into `[0, N − 1]`. -/
def nodeOf (N : Nat) (hN : 0 < N) {w : Nat} (x : BitVec w) : Fin N := ⟨min x.toInt.toNat (N - 1), by omega⟩

/-- The row gather read at `(e, d)`: the operand at the row `idx[e]` names. -/
theorem gather_nodes_apply {α : Type} (hN : 0 < N)
    (wfg : GatherDims.WF ⟨2, ![N, D]⟩ ⟨2, ![M, 1]⟩ ⟨2, ![M, D]⟩ [1] [0] [] [0] [] 1 ![1, D])
    (x : (⟨2, ![N, D]⟩ : Shape).Idx → α) (idx : IVec ⟨2, ![M, 1]⟩ w) (e : Fin M) (d : Fin D) :
    Host.gather (nodeGatherDims N D M wfg) x idx (ix2 e d)
      = x (ix2 (nodeOf N hN (idx (ix2 e (0 : Fin 1)))) d) := by
  unfold Host.gather
  refine congrArg x (funext fun a => Fin.ext ?_)
  have hst : (nodeGatherDims N D M wfg).start (ix2 e d) idx 0 = min (idx (ix2 e (0 : Fin 1))).toInt.toNat (N - 1) := by
    unfold GatherDims.start
    rw [dif_pos (show (0 : Fin 2) ∈ (nodeGatherDims N D M wfg).startIndexMap from List.mem_singleton.mpr rfl)]
    have hsi : (nodeGatherDims N D M wfg).siIdx (ix2 e d) ⟨List.idxOf (0 : Fin 2) (nodeGatherDims N D M wfg).startIndexMap,
        List.idxOf_lt_length_iff.2 (List.mem_singleton.mpr rfl)⟩ = ix2 e (0 : Fin 1) := by
      funext c; refine Fin.ext ?_
      match c with
      | ⟨0, _⟩ => rfl
      | ⟨1, _⟩ => rfl
    rw [hsi]
    rfl
  match a with
  | ⟨0, _⟩ =>
    show (nodeGatherDims N D M wfg).start (ix2 e d) idx 0 + (nodeGatherDims N D M wfg).batchCoord (ix2 e d) 0
      + (nodeGatherDims N D M wfg).offCoord (ix2 e d) 0 = min (idx (ix2 e (0 : Fin 1))).toInt.toNat (N - 1)
    have h2 : (nodeGatherDims N D M wfg).batchCoord (ix2 e d) 0 = 0 := rfl
    have h3 : (nodeGatherDims N D M wfg).offCoord (ix2 e d) 0 = 0 := rfl
    rw [hst, h2, h3]; rfl
  | ⟨1, _⟩ =>
    show (nodeGatherDims N D M wfg).start (ix2 e d) idx 1 + (nodeGatherDims N D M wfg).batchCoord (ix2 e d) 1
      + (nodeGatherDims N D M wfg).offCoord (ix2 e d) 1 = d.val
    have h1 : (nodeGatherDims N D M wfg).start (ix2 e d) idx 1 = 0 := rfl
    have h2 : (nodeGatherDims N D M wfg).batchCoord (ix2 e d) 1 = 0 := rfl
    have h3 : (nodeGatherDims N D M wfg).offCoord (ix2 e d) 1 = d.val := rfl
    rw [h1, h2, h3]; omega

end Cert.LibNodes
end
-- ==== Proof.UserRows.lean ====
/-
  The users' rows: gathering rows of the whole accumulated table and scaling by 1/4 (the kernel), against dividing the
  table by 4, keeping its first 200000 rows and gathering from those (the reference).

  A row index e names row users[e]. A negative index is first moved up by the table's height — 210000 on one side,
  200000 on the other — and the gather then clamps the index into the table. For 0 ≤ users[e] < 200000 neither the
  move nor the clamp changes it, so both sides read row users[e] of the accumulated table; and on the extended reals
  x · (1/4) = x / 4 for every x, the infinities included.
-/
import proofs.«142578_j90658169684590_2_alg».proof.Proof.LibNodeScatter
import Idealize.ShloMosaic.PureOps.Ideal
import Idealize.ShloMosaic.Lib.ValueIdx
import Idealize.ShloMosaic.Lib.Affine
import Idealize.ShloMosaic.Lib.ValueLayout
import Idealize.ShloMosaic.Lib.Pipeline.Value

noncomputable section

namespace Cert.UserRows

open Idealize.ShloMosaic Idealize.ShloMosaic.ValueIdx Cert.LibNodes

/-- The word 0x3E800000 is one quarter. -/
theorem ofBits_quarter : Ideal.ofBits .f32 0x3E800000#32 = (((1 / 4 : ℝ)) : EReal) := by
  simp [Ideal.ofBits, Ideal.ieee, -EReal.coe_mul]; norm_num

/-- The word 0x40800000 is four. -/
theorem ofBits_four : Ideal.ofBits .f32 0x40800000#32 = ((4 : ℝ) : EReal) := by
  simp [Ideal.ofBits, Ideal.ieee, -EReal.coe_mul]; norm_num

/-- Scaling by the word for 1/4 is dividing by the word for 4, on every extended real. -/
theorem quarter_eq_div_four (x : EReal) :
    x * Ideal.ofBits .f32 0x3E800000#32 = Ideal.div x (Ideal.ofBits .f32 0x40800000#32) := by
  rw [ofBits_quarter, ofBits_four, Ideal.div_coe (by norm_num : (4 : ℝ) ≠ 0)]

/-- An index word in [0, 200000), moved up by n when negative, is itself. -/
theorem wrap_id (a : BitVec 32) (n : BitVec 32) (h0 : 0 ≤ a.toInt) :
    Scalar.select (IntOp.cmpi .slt a 0#32) (IntOp.addi a n) a = a := by
  have hc : IntOp.cmpi .slt a 0#32 = 0#1 := by
    rcases BitVec.eq_zero_or_eq_one (IntOp.cmpi .slt a 0#32) with h | h
    · exact h
    · have := IntOp.cmpi_slt.mp h
      have z : (0#32 : BitVec 32).toInt = 0 := by decide
      omega
  rw [hc, select_zero]

abbrev TAll : Shape := ⟨2, ![210000, 64]⟩
abbrev TUsers : Shape := ⟨2, ![200000, 64]⟩
abbrev TIdx : Shape := ⟨1, ![8192]⟩
abbrev TCol : Shape := ⟨2, ![8192, 1]⟩
abbrev TOut : Shape := ⟨2, ![8192, 64]⟩
abbrev TS : Shape := ⟨0, ![]⟩

/-- The index column both programs gather by: each word moved up by n when negative, laid as a column. -/
def column (hb0 : TS.BroadcastsInDim TIdx (![] : Fin 0 → Fin TIdx.rank)) (hb1 : TIdx.BroadcastsInDim TCol (![0] : Fin 1 → Fin TCol.rank))
    (n : BitVec 32) (a0 : IVec TIdx 32) : IVec TCol 32 :=
  broadcastInDim TCol ![0] hb1 (select (cmpi .slt a0 (broadcastInDim TIdx ![] hb0 (constantI TS 32 0#32)))
    (addi a0 (broadcastInDim TIdx ![] hb0 (constantI TS 32 n))) a0)

/-- In range, the column holds the index words themselves. -/
theorem column_apply (hb0 : TS.BroadcastsInDim TIdx (![] : Fin 0 → Fin TIdx.rank)) (hb1 : TIdx.BroadcastsInDim TCol (![0] : Fin 1 → Fin TCol.rank))
    (n : BitVec 32) (a0 : IVec TIdx 32) (e : Fin 8192) (h0 : 0 ≤ (a0 (ix1 e)).toInt) :
    column hb0 hb1 n a0 (ix2 e (0 : Fin 1)) = a0 (ix1 e) := by
  unfold column
  rw [broadcastInDim_apply ![0] hb1 _ (ix2 e (0 : Fin 1)) (ix1 e) (fun a => by
    match a with
    | ⟨0, _⟩ => show e.val = if (8192 : ℕ) = 1 then 0 else e.val; rw [if_neg (by decide)])]
  show Scalar.select (IntOp.cmpi .slt (a0 (ix1 e)) (broadcastInDim TIdx ![] hb0 (constantI TS 32 0#32) (ix1 e)))
    (IntOp.addi (a0 (ix1 e)) (broadcastInDim TIdx ![] hb0 (constantI TS 32 n) (ix1 e))) (a0 (ix1 e)) = _
  rw [broadcastInDim_apply ![] hb0 (constantI TS 32 0#32) (ix1 e) ix0 (fun a => a.elim0),
    broadcastInDim_apply ![] hb0 (constantI TS 32 n) (ix1 e) ix0 (fun a => a.elim0)]
  exact wrap_id _ _ h0

/-- The two programs' user rows agree when every user index is in [0, 200000). -/
theorem users_eq
    (wfK : GatherDims.WF TAll TCol TOut [1] [0] [] [0] [] 1 ![1, 64])
    (wfR : GatherDims.WF TUsers TCol TOut [1] [0] [] [0] [] 1 ![1, 64])
    (hb0 : TS.BroadcastsInDim TIdx (![] : Fin 0 → Fin TIdx.rank)) (hb1 : TIdx.BroadcastsInDim TCol (![0] : Fin 1 → Fin TCol.rank))
    (hbq : TS.BroadcastsInDim TOut (![] : Fin 0 → Fin TOut.rank)) (hbf : TS.BroadcastsInDim TAll (![] : Fin 0 → Fin TAll.rank))
    (hs : TAll.Slices ![0, 0] TUsers)
    (acc : FVec Ideal TAll .f32) (a0 : IVec TIdx 32)
    (hr : ∀ e : Fin 8192, 0 ≤ (a0 (ix1 e)).toInt ∧ (a0 (ix1 e)).toInt < 200000) :
    mulf (Host.gather (nodeGatherDims 210000 64 8192 wfK) acc (column hb0 hb1 210000#32 a0))
        (broadcastInDim TOut ![] hbq (constant (F := Ideal) TS .f32 0x3E800000#32))
      = Host.gather (nodeGatherDims 200000 64 8192 wfR)
          (extractStridedSlice TUsers ![0, 0] (Host.divf (F := Ideal) acc (broadcastInDim TAll ![] hbf (constant (F := Ideal) TS .f32 0x40800000#32))) hs)
          (column hb0 hb1 200000#32 a0) := by
  funext i
  obtain ⟨e, d, rfl⟩ : ∃ (e : Fin 8192) (d : Fin 64), i = ix2 e d := ⟨i 0, i 1, eq_ix2 i⟩
  obtain ⟨h0, h1⟩ := hr e
  show Host.gather (nodeGatherDims 210000 64 8192 wfK) acc (column hb0 hb1 210000#32 a0) (ix2 e d)
      * broadcastInDim TOut ![] hbq (constant (F := Ideal) TS .f32 0x3E800000#32) (ix2 e d) = _
  rw [gather_nodes_apply (by decide) wfK, gather_nodes_apply (by decide) wfR, column_apply hb0 hb1 _ a0 e h0, column_apply hb0 hb1 _ a0 e h0,
    broadcastInDim_apply ![] hbq _ (ix2 e d) ix0 (fun a => a.elim0), slice2_axis0_eq]
  show acc _ * Ideal.ofBits .f32 0x3E800000#32 = Ideal.div (acc _) (broadcastInDim TAll ![] hbf (constant (F := Ideal) TS .f32 0x40800000#32) _)
  rw [broadcastInDim_apply ![] hbf _ _ ix0 (fun a => a.elim0)]
  show acc _ * Ideal.ofBits .f32 0x3E800000#32 = Ideal.div (acc _) (Ideal.ofBits .f32 0x40800000#32)
  rw [← quarter_eq_div_four]
  refine congrArg (fun j => acc j * Ideal.ofBits .f32 0x3E800000#32) ?_
  funext a
  refine Fin.ext ?_
  match a with
  | ⟨0, _⟩ =>
    show min (a0 (ix1 e)).toInt.toNat (210000 - 1) = 0 + min (a0 (ix1 e)).toInt.toNat (200000 - 1)
    omega
  | ⟨1, _⟩ => rfl

end Cert.UserRows

end
-- ==== Proof.Bridge.lean ====
/-
  The kernel's program and the reference compute the same tables.

  The hypergraph view: the kernel takes the last 10000 rows of the accumulated table and scales them by 1/4, the
  reference divides the table by 4 and takes its last 10000 rows; on the extended reals x · (1/4) = x / 4. The
  group-item view, the group-group matrix and the embedding table are the same arrays; a weight column laid as a row
  reads the same entries, and a bias laid as a 1 × 1 array is the bias. So the kernel's result table is the
  reference's fused table, entry by entry; and the users' rows agree when every user index is in [0, 200000).
-/
import proofs.«142578_j90658169684590_2_alg».proof.Proof.KernelArray
import proofs.«142578_j90658169684590_2_alg».proof.Proof.HostBefore
import proofs.«142578_j90658169684590_2_alg».proof.Proof.RefFused
import proofs.«142578_j90658169684590_2_alg».proof.Proof.UserRows
import proofs.«142578_j90658169684590_2_alg».proof.Proof.LibKeepdims
import Idealize.ShloMosaic.Lib.ValueLayout

noncomputable section

namespace Cert.Bridge

open Cert.KernelIdeal Cert.KernelIdeal.Gen Cert.KernelIdeal.HostValues Cert.KernelIdeal.ArrayValue
open Idealize.ShloMosaic Idealize.ShloMosaic.TcCoe Idealize.ShloMosaic.ValueIdx Idealize.SL.Sem

variable (m : (ℓ : Loc nD τ sig) → Buf (Elt Ideal) ℓ) (c : Dev nD)

/-- The last 10000 rows of any 210000 × 64 table scaled by 1/4, at (r, k): entry (200000 + r, k) divided by 4. -/
theorem quarter_slice (X : S210000x64.Idx → EReal) (r : Fin 10000) (k : Fin 64) :
    mulf (extractStridedSlice S10000x64 ![200000, 0] X slices_S210000x64_S10000x64_200000_0)
        (broadcastInDim S10000x64 ![] bcast_S_S10000x64 (constant (F := Ideal) S_ .f32 0x3E800000#32)) (ix2 r k)
      = Ideal.div (X (Cert.ReferenceIdeal.Read.idx_main_v46 (ix2 r k))) (Ideal.ofBits .f32 0x40800000#32) := by
  show extractStridedSlice S10000x64 ![200000, 0] X slices_S210000x64_S10000x64_200000_0 (ix2 r k)
      * broadcastInDim S10000x64 ![] bcast_S_S10000x64 (constant (F := Ideal) S_ .f32 0x3E800000#32) (ix2 r k) = _
  rw [slice2_axis0_eq, broadcastInDim_apply ![] bcast_S_S10000x64 _ (ix2 r k) ix0 (fun a => a.elim0)]
  show X _ * Ideal.ofBits .f32 0x3E800000#32 = _
  rw [Cert.UserRows.quarter_eq_div_four]
  refine congrArg (fun j => Ideal.div (X j) (Ideal.ofBits .f32 0x40800000#32)) ?_
  funext a
  refine Fin.ext ?_
  match a with
  | ⟨0, _⟩ => rfl
  | ⟨1, _⟩ => rfl

/-- The reference's hypergraph view at (r, k): entry (200000 + r, k) of its accumulated table divided by 4. -/
theorem ref_hg (x3 x4 : (⟨S3000000, .i32⟩ : BufTy).Contents (Elt Ideal)) (x5 : (⟨S3000000, .f32⟩ : BufTy).Contents (Elt Ideal)) (x10 : (⟨S200000x64, .f32⟩ : BufTy).Contents (Elt Ideal)) (x12 : (⟨S10000x64, .f32⟩ : BufTy).Contents (Elt Ideal))
    (r : Fin 10000) (k : Fin 64) :
    Cert.ReferenceIdeal.Read.val_main_v46 (F := Ideal) x3 x4 x5 x10 x12 (ix2 r k)
      = Ideal.div (Cert.ReferenceIdeal.Read.val_main_v42 (F := Ideal) x3 x4 x5 x10 x12 (Cert.ReferenceIdeal.Read.idx_main_v46 (ix2 r k))) (Ideal.ofBits .f32 0x40800000#32) := by
  rw [Cert.ReferenceIdeal.Read.val_main_v46_apply, Cert.ReferenceIdeal.Read.val_main_v44_apply, Cert.ReferenceIdeal.Read.val_main_v43_apply, Cert.ReferenceIdeal.Read.val_main_cst_7_apply]
  rfl

/-- The hypergraph view, entry by entry. -/
theorem hg_eq (r : Fin 10000) (k : Fin 64) :
    V m c main_v45 (ix2 r k) = Cert.ReferenceIdeal.Read.val_main_v46 (F := Ideal) (m ((c : Thread nD τ).loc main_arg3)) (m ((c : Thread nD τ).loc main_arg4)) (m ((c : Thread nD τ).loc main_arg5)) (m ((c : Thread nD τ).loc main_arg10)) (m ((c : Thread nD τ).loc main_arg12)) (ix2 r k) :=
  (congrFun (V_v45 m c) (ix2 r k)).trans ((quarter_slice (acc m c) r k).trans (ref_hg _ _ _ _ _ r k).symm)

/-- A weight column laid as a row reads the column's entries. -/
theorem w_eq (x : S64x1.Idx → EReal) (k : Fin 64) :
    shapeCast S1x64 x shapeCasts_S64x1_S1x64 (ix2 (0 : Fin 1) k) = x (ix2 k (0 : Fin 1)) :=
  shapeCast_apply x _ _ _ (by
    rw [Shape.rowMajor_val_two, Shape.rowMajor_val_two]
    show k.val * 1 + 0 = 0 * 64 + k.val
    omega)

/-- A bias laid as a 1 × 1 array is the bias. -/
theorem b_eq (x : S1.Idx → EReal) : shapeCast S1x1 x shapeCasts_S1_S1x1 (ix2 (0 : Fin 1) (0 : Fin 1)) = x (ix1 (0 : Fin 1)) :=
  Cert.LibKeepdims.shapeCast_a_a1_apply x _ 0 0

/-- THE KERNEL'S RESULT TABLE is the reference's fused table. -/
theorem table_eq : tableV m c = Cert.ReferenceIdeal.Read.val_main_v100 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  funext i
  obtain ⟨r, j, rfl⟩ : ∃ (r : Fin 10000) (j : Fin 64), i = ix2 r j := ⟨i 0, i 1, eq_ix2 i⟩
  rw [Cert.ReferenceIdeal.RefFused.groups_apply]
  show Fusion.rowFused (fun k => V m c main_v45 (ix2 r k)) (fun k => V m c main_v69 (ix2 r k)) (fun l => V m c main_arg9 (ix2 r l))
    (fun l q => V m c main_v70 (ix2 l q)) (fun k => V m c main_v71 (ix2 (0 : Fin 1) k)) (fun k => V m c main_v72 (ix2 (0 : Fin 1) k))
    (fun k => V m c main_v73 (ix2 (0 : Fin 1) k)) (V m c main_v74 (ix2 (0 : Fin 1) (0 : Fin 1))) (V m c main_v75 (ix2 (0 : Fin 1) (0 : Fin 1)))
    (V m c main_v76 (ix2 (0 : Fin 1) (0 : Fin 1))) j = _
  exact Fusion.rowFused_congr (fun k => hg_eq m c r k) (fun k => congrFun (V_v69 m c) (ix2 r k))
    (fun l => congrFun (V_main_arg9 m c) (ix2 r l)) (fun l q => congrFun (V_v70 m c) (ix2 l q))
    (fun k => (congrFun (V_v71 m c) _).trans (w_eq _ k)) (fun k => (congrFun (V_v72 m c) _).trans (w_eq _ k))
    (fun k => (congrFun (V_v73 m c) _).trans (w_eq _ k))
    ((congrFun (V_v74 m c) _).trans (b_eq _)) ((congrFun (V_v75 m c) _).trans (b_eq _)) ((congrFun (V_v76 m c) _).trans (b_eq _)) j

/-- THE USERS' ROWS agree when every user index is in [0, 200000). -/
theorem users_eq (hr : ∀ e : Fin 8192, 0 ≤ ((m ((c : Thread nD τ).loc main_arg0)) (ix1 e)).toInt ∧ ((m ((c : Thread nD τ).loc main_arg0)) (ix1 e)).toInt < 200000) :
    V m c main_v54 = Cert.ReferenceIdeal.Read.val_main_v107 (F := Ideal) (m ((c : Thread nD τ).loc main_arg0)) (m ((c : Thread nD τ).loc main_arg3)) (m ((c : Thread nD τ).loc main_arg4)) (m ((c : Thread nD τ).loc main_arg5)) (m ((c : Thread nD τ).loc main_arg10)) (m ((c : Thread nD τ).loc main_arg12)) :=
  (V_v54 m c).trans (Cert.UserRows.users_eq gather_S210000x64_S8192x1_S8192x64_1_0_n_n_0_1_164.wf
    Cert.ReferenceIdeal.gather_S200000x64_S8192x1_S8192x64_1_0_n_n_0_1_164.wf
    bcast_S_S8192 bcast_S8192_S8192x1_0 bcast_S_S8192x64 Cert.ReferenceIdeal.Facts₀.bcast_S_S210000x64
    Cert.ReferenceIdeal.Facts₀.slices_S210000x64_S200000x64_0_0 (acc m c) (m ((c : Thread nD τ).loc main_arg0)) hr)

/-- The positive groups' rows of the two fused tables. -/
theorem pos_eq : Host.gather gather_S10000x64_S8192x1_S8192x64_1_0_n_n_0_1_164 (tableV m c) (column 10000#32 (m ((c : Thread nD τ).loc main_arg1)))
    = Cert.ReferenceIdeal.Read.val_main_v114 (F := Ideal) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (congrArg (fun X => Host.gather gather_S10000x64_S8192x1_S8192x64_1_0_n_n_0_1_164 X (column 10000#32 (m ((c : Thread nD τ).loc main_arg1)))) (table_eq m c)).trans rfl

/-- The negative groups' rows of the two fused tables. -/
theorem neg_eq : Host.gather gather_S10000x64_S8192x1_S8192x64_1_0_n_n_0_1_164 (tableV m c) (column 10000#32 (m ((c : Thread nD τ).loc main_arg2)))
    = Cert.ReferenceIdeal.Read.val_main_v121 (F := Ideal) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) :=
  (congrArg (fun X => Host.gather gather_S10000x64_S8192x1_S8192x64_1_0_n_n_0_1_164 X (column 10000#32 (m ((c : Thread nD τ).loc main_arg2)))) (table_eq m c)).trans rfl

end Cert.Bridge

end
-- ==== Proof.PreDecode.lean ====
/-
  The precondition read at one user index.

  The precondition is a conjunction of "all" tests, evaluated to one word that must be 1. Its last two conjuncts say
  that every user index is at least 0 and below 200000, compared as signed words. Read at one entry e they give
  0 ≤ users[e] < 200000 as integers.
-/
import proofs.«142578_j90658169684590_2_alg».proof.Pre_finite_inputs
import Idealize.ShloMosaic.Lib.ReduceAll
import Idealize.ShloMosaic.Lib.Affine
import Idealize.ShloMosaic.Lib.ValueIdx

noncomputable section

namespace Cert.Pre_finite_inputs.Decode

open Idealize.ShloMosaic Idealize.ShloMosaic.ValueIdx Cert.Pre_finite_inputs

variable {F : FTy → Type} [FloatOps F] [Facts]
open Facts

instance : Subsingleton S_.Idx := ⟨fun a b => funext fun d => d.elim0⟩

/-- The last part of the conjunction, which holds the two tests on the user indices. -/
theorem part3_range (a0 : IVec S8192 32) (a18 : FVec F S1 .f32) (v48 : IVec S_ 1) (v49 v50 : FVec F S64x1 .f32)
    (h : fn_part3 (F := F) a0 a18 v48 v49 v50 ix0 = 1#1) (e : Fin 8192) :
    0 ≤ (a0 (ix1 e)).toInt ∧ (a0 (ix1 e)).toInt < 200000 := by
  unfold fn_part3 at h
  dsimp only at h
  obtain ⟨h1, h65⟩ := IntOp.andi_eq_one.mp h
  obtain ⟨-, h61⟩ := IntOp.andi_eq_one.mp h1
  have g0 := Host.reduce_andi_all _ _ _ _ _ h61 (ix1 e)
  have g1 := Host.reduce_andi_all _ _ _ _ _ h65 (ix1 e)
  have g0' : (0#32 : BitVec 32).toInt ≤ (a0 (ix1 e)).toInt := IntOp.cmpi_sge.mp g0
  have g1' : (a0 (ix1 e)).toInt < (200000#32 : BitVec 32).toInt := IntOp.cmpi_slt.mp g1
  have z0 : (0#32 : BitVec 32).toInt = 0 := by decide
  have z1 : (200000#32 : BitVec 32).toInt = 200000 := by decide
  omega

/-- The whole precondition gives the range of every user index. -/
theorem users_in_range (a0 a1 a2 : IVec S8192 32) (a3 a4 : IVec S3000000 32) (a5 : FVec F S3000000 .f32)
    (a6 a7 : IVec S2000000 32) (a8 : FVec F S2000000 .f32) (a9 : FVec F S10000x10000 .f32) (a10 : FVec F S200000x64 .f32)
    (a11 : FVec F S100000x64 .f32) (a12 : FVec F S10000x64 .f32) (a13 : FVec F S64x1 .f32) (a14 : FVec F S1 .f32)
    (a15 : FVec F S64x1 .f32) (a16 : FVec F S1 .f32) (a17 : FVec F S64x1 .f32) (a18 : FVec F S1 .f32)
    (h : fn (F := F) a0 a1 a2 a3 a4 a5 a6 a7 a8 a9 a10 a11 a12 a13 a14 a15 a16 a17 a18 = fun _ => 1#1) (e : Fin 8192) :
    0 ≤ (a0 (ix1 e)).toInt ∧ (a0 (ix1 e)).toInt < 200000 := by
  have h0 := congrFun h ix0
  unfold fn at h0
  dsimp only at h0
  unfold fn_part1 at h0
  dsimp only at h0
  unfold fn_part2 at h0
  dsimp only at h0
  exact part3_range a0 a18 _ _ _ h0 e

end Cert.Pre_finite_inputs.Decode

end
-- ==== Proof.lean ====
/-
  The fusion kernel's program against its reference, on the extended reals.

  Both programs accumulate the hypergraph table and the group-item product by the same host operations on the same
  arguments, so those are the same arrays. The kernel's launch computes, 200 groups at a time, the gated sum of the
  three views of each group; the fifty blocks tile the 10000 groups, and each entry is the reference's: a matrix
  product is a sum over the contracted axis whichever unit forms it, a lane sum against a weight row is the product
  with the weight column, a change of float format is the identity, and 1 / (1 + exp (−s)) is the logistic function.
  The kernel scales rows of the accumulated table by 1/4 after slicing or gathering them, the reference divides the
  table by 4 first: x · (1/4) = x / 4 on every extended real. The users' rows are gathered from the whole 210000-row
  table by the kernel's program and from its first 200000 rows by the reference, which is the same row exactly when
  the user index is in [0, 200000): that is the precondition's added conjunct, the range of the array the reference
  indexes.
-/
import proofs.«142578_j90658169684590_2_alg».proof.Defs
import proofs.«142578_j90658169684590_2_alg».proof.Proof.Gen.Kernel
import proofs.«142578_j90658169684590_2_alg».proof.Proof.Gen.Kernel.Frame
import proofs.«142578_j90658169684590_2_alg».proof.Proof.Gen.KernelIdeal
import proofs.«142578_j90658169684590_2_alg».proof.Proof.Gen.KernelIdeal.Frame
import proofs.«142578_j90658169684590_2_alg».proof.Proof.Gen.ReferenceIdeal
import proofs.«142578_j90658169684590_2_alg».proof.Proof.Gen.ReferenceIdeal.Run
import proofs.«142578_j90658169684590_2_alg».proof.Proof.Gen.ReferenceIdeal.Read
import proofs.«142578_j90658169684590_2_alg».proof.Proof.Gen.Pre_finite_inputs
import proofs.«142578_j90658169684590_2_alg».proof.Proof.KernelRun
import proofs.«142578_j90658169684590_2_alg».proof.Proof.Bridge
import proofs.«142578_j90658169684590_2_alg».proof.Proof.PreDecode
import Idealize.ShloMosaic.Adequacy
import Idealize.ShloMosaic.Init

set_option maxRecDepth 16384

noncomputable section

namespace Cert.Proof

open Idealize.ShloMosaic Idealize.ShloMosaic.TcCoe Idealize.ShloMosaic.ValueIdx Idealize.SL.Sem

section Claims

variable [hKernel : Cert.Kernel.Facts] [hKernelIdeal : Cert.KernelIdeal.Facts] [hReferenceIdeal : Cert.ReferenceIdeal.Facts]
  [hPre_finite_inputs : Cert.Pre_finite_inputs.Facts]

theorem frame_k : Cert.frame_Kernel := fun m ρ _ => Cert.Kernel.Gen.frame m ρ

theorem frame_ki : Cert.frame_KernelIdeal := fun m ρ _ => Cert.KernelIdeal.Gen.frame m ρ

/-- The reference's frame is its run with the results dropped. -/
theorem frame_ri : Cert.frame_ReferenceIdeal := fun m ρ _ =>
  (θ_run Cert.ReferenceIdeal.defs _ _).mono (fun _ h c => (h c).2.2.2.2.2.2) (Cert.ReferenceIdeal.Value.run (F := Ideal) m ρ)

/-- Under the precondition every user index names one of the 200000 users. -/
theorem users_range (m : (ℓ : Loc Cert.KernelIdeal.nD Cert.KernelIdeal.τ Cert.KernelIdeal.sig) → Buf (Elt Ideal) ℓ)
    (hpre : Cert.Pre_KernelIdeal m) (c : Dev Cert.KernelIdeal.nD) (e : Fin 8192) :
    0 ≤ (m ((c.tc : Thread Cert.KernelIdeal.nD Cert.KernelIdeal.τ).loc Cert.KernelIdeal.main_arg0) (ix1 e)).toInt
      ∧ (m ((c.tc : Thread Cert.KernelIdeal.nD Cert.KernelIdeal.τ).loc Cert.KernelIdeal.main_arg0) (ix1 e)).toInt < 200000 :=
  Cert.Pre_finite_inputs.Decode.users_in_range _ _ _ _ _ _ _ _ _ _ _ _ _ _ _ _ _ _ _ (hpre c) e

set_option maxHeartbeats 4000000 in
/-- The two idealized programs return equal arrays. -/
theorem algebraic : Cert.algebraic_KernelIdeal_ReferenceIdeal := by
  intro m ρ m' ρ' hpre hagree
  refine ⟨_, _, _, _, _, _, Cert.KernelIdeal.KernelRun.run m ρ, ?_⟩
  refine (θ_run Cert.ReferenceIdeal.defs _ _).mono (fun _ h c => ?_) (Cert.ReferenceIdeal.Value.run (F := Ideal) m' ρ')
  obtain ⟨h0, h1, h2, h3, h4, h5, hargs⟩ := h c
  obtain ⟨e0, e1, e2, e3, e4, e5, e6, e7, e8, e9, e10, e11, e12, e13, e14, e15, e16, e17, e18⟩ := hagree c
  refine ⟨h0.trans ?_, h1.trans ?_, h2.trans ?_, h3.trans ?_, h4.trans ?_, h5.trans ?_, hargs⟩
  · rw [Cert.ReferenceIdeal.Read.val_main_v107_eq, e0, e3, e4, e5, e10, e12]
    exact (Cert.Bridge.users_eq m c (fun e => users_range m hpre c e)).symm
  · rw [Cert.ReferenceIdeal.Read.val_main_v114_eq, e1, e3, e4, e5, e6, e7, e8, e9, e10, e11, e12, e13, e14, e15, e16, e17, e18]
    exact (Cert.Bridge.pos_eq m c).symm
  · rw [Cert.ReferenceIdeal.Read.val_main_v121_eq, e2, e3, e4, e5, e6, e7, e8, e9, e10, e11, e12, e13, e14, e15, e16, e17, e18]
    exact (Cert.Bridge.neg_eq m c).symm
  · rw [e0, e10]; rfl
  · rw [e1, e12]; rfl
  · rw [e2, e12]; rfl

end Claims

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
